-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_768" .f32 0x3AAAAAAB#32 ((1 / 768 : ℝ) : EReal)
  ∧ IdealRules.named_const.Statement Cert.KernelIdeal.κ "inv_768" .f32 0x3AAAAAAB#32 ((1 / 768 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x768 : Shape := ⟨3, ![4, 8192, 768]⟩
abbrev S8192x768 : Shape := ⟨2, ![8192, 768]⟩
abbrev S768 : Shape := ⟨1, ![768]⟩
abbrev S_ : Shape := ⟨0, ![]⟩

class Facts : Prop where
  bcast_S_S4x8192x768 : S_.BroadcastsInDim S4x8192x768 (![] : Fin 0 → Fin S4x8192x768.rank)
  reducesTo_S4x8192x768_S_d0_1_2 : S4x8192x768.ReducesTo [0, 1, 2] S_
  h_S_ : 0 < S_.numel
  bcast_S_S8192x768 : S_.BroadcastsInDim S8192x768 (![] : Fin 0 → Fin S8192x768.rank)
  reducesTo_S8192x768_S_d0_1 : S8192x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  main_v18

def fn {F : FTy → Type} [FloatOps F] (main_arg0 : FVec F S4x8192x768 .f32) (main_arg1 : FVec F S8192x768 .f32) (main_arg2 : FVec F S768 .f32) (main_arg3 : FVec F S768 .f32) : IVec S_ 1 :=
  let main_v0 : FVec F S4x8192x768 .f32 := Host.absf main_arg0
  let main_cst : FVec F S_ .f32 := constant S_ .f32 0x7F800000#32
  let main_v1 : FVec F S4x8192x768 .f32 := broadcastInDim S4x8192x768 ![] bcast_S_S4x8192x768 main_cst
  let main_v2 : IVec S4x8192x768 1 := cmpf .olt main_v0 main_v1
  let main_c : IVec S_ 1 := constantI S_ 1 1#1
  let main_v3 : IVec S_ 1 := (fun x v => Host.reduce IntOp.andi x v reducesTo_S4x8192x768_S_d0_1_2 h_S_) main_v2 main_c
  let main_v4 : FVec F S8192x768 .f32 := Host.absf main_arg1
  let main_cst_0 : FVec F S_ .f32 := constant S_ .f32 0x7F800000#32
  let main_v5 : FVec F S8192x768 .f32 := broadcastInDim S8192x768 ![] bcast_S_S8192x768 main_cst_0
  let main_v6 : IVec S8192x768 1 := cmpf .olt main_v4 main_v5
  let main_c_1 : IVec S_ 1 := constantI S_ 1 1#1
  let main_v7 : IVec S_ 1 := (fun x v => Host.reduce IntOp.andi x v reducesTo_S8192x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_v13 main_v16
-- ==== Kernel.lean ====
abbrev S4x8192x768 : Shape := ⟨3, ![4, 8192, 768]⟩
abbrev S8192x768 : Shape := ⟨2, ![8192, 768]⟩
abbrev S768 : Shape := ⟨1, ![768]⟩
abbrev S1x768 : Shape := ⟨2, ![1, 768]⟩
abbrev S1x512x768 : Shape := ⟨3, ![1, 512, 768]⟩
abbrev S512x768 : Shape := ⟨2, ![512, 768]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S4x8192x768, .f32⟩
  | .hbm, ⟨1, _⟩ => ⟨S8192x768, .f32⟩
  | .hbm, ⟨2, _⟩ => ⟨S768, .f32⟩
  | .hbm, ⟨3, _⟩ => ⟨S768, .f32⟩
  | .hbm, ⟨4, _⟩ => ⟨S1x768, .f32⟩
  | .hbm, ⟨5, _⟩ => ⟨S1x768, .f32⟩
  | .hbm, ⟨6, _⟩ => ⟨S4x8192x768, .f32⟩
  | .local _ .vmem, ⟨0, _⟩ => ⟨S1x512x768, .f32⟩
  | .local _ .vmem, ⟨1, _⟩ => ⟨S1x512x768, .f32⟩
  | .local _ .vmem, ⟨2, _⟩ => ⟨S512x768, .f32⟩
  | .local _ .vmem, ⟨3, _⟩ => ⟨S512x768, .f32⟩
  | .local _ .vmem, ⟨4, _⟩ => ⟨S1x768, .f32⟩
  | .local _ .vmem, ⟨5, _⟩ => ⟨S1x768, .f32⟩
  | .local _ .vmem, ⟨6, _⟩ => ⟨S1x512x768, .f32⟩
  | .local _ .vmem, ⟨7, _⟩ => ⟨S1x512x768, .f32⟩
  | _, _ => ⟨S4x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S768_S1x768 : S768.ShapeCasts S1x768
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  inb_S512x768_S512x768_0_0 : ∀ a, (![0, 0] : Fin 2 → Nat) a + S512x768.size a ≤ S512x768.size a
  h_S512x768 : 0 < S512x768.numel
  reduces_S512x768_S512 : S512x768.Reduces [1] S512
  shapeCasts_S512_S512x1 : S512.ShapeCasts S512x1
  broadcasts_S512x1_S512x768 : S512x1.Broadcasts S512x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  shapeCasts_S512x768_S1x512x768 : S512x768.ShapeCasts S1x512x768
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x768.size a ≤ S4x8192x768.size a
  hwx0_0 : ∀ i : grid0.Coords, EltTy.bits .f32 = 32 ∨ (Rect.block (s := S4x8192x768) S1x512x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x768.size a ≤ S8192x768.size a
  hwx0_1 : ∀ i : grid0.Coords, EltTy.bits .f32 = 32 ∨ (Rect.block (s := S8192x768) S512x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x768.size a ≤ S4x8192x768.size a
  hwx0_4 : ∀ i : grid0.Coords, EltTy.bits .f32 = 32 ∨ (Rect.block (s := S4x8192x768) S1x512x768.size (cc0_transform_4 i) (hinb0_4 i)).WholeWords (EltTy.packing .f32)

variable [Facts₀]

abbrev win0_0 : Pipeline.Window sig grid0 :=
  Pipeline.Window.ofSpec (Memref.whole main_arg0) S1x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v1) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x8192x768 : Shape := ⟨3, ![4, 8192, 768]⟩
abbrev S8192x768 : Shape := ⟨2, ![8192, 768]⟩
abbrev S768 : Shape := ⟨1, ![768]⟩
abbrev S8192 : Shape := ⟨1, ![8192]⟩
abbrev S1x8192 : Shape := ⟨2, ![1, 8192]⟩
abbrev S4x8192 : Shape := ⟨2, ![4, 8192]⟩
abbrev S_ : Shape := ⟨0, ![]⟩
abbrev S4x8192x1 : Shape := ⟨3, ![4, 8192, 1]⟩
abbrev S1 : Shape := ⟨1, ![1]⟩
abbrev S1x1x1 : Shape := ⟨3, ![1, 1, 1]⟩
abbrev S1x1x768 : Shape := ⟨3, ![1, 1, 768]⟩

abbrev nBuf : Space → Nat
  | .hbm => 60
  | .vmem => 0
  | .smem => 0
  | _ => 0

abbrev bufTy : (tb : Table) → Fin (tcTables nBuf tb) → BufTy
  | .hbm, ⟨0, _⟩ => ⟨S4x8192x768, .f32⟩
  | .hbm, ⟨1, _⟩ => ⟨S8192x768, .f32⟩
  | .hbm, ⟨2, _⟩ => ⟨S768, .f32⟩
  | .hbm, ⟨3, _⟩ => ⟨S768, .f32⟩
  | .hbm, ⟨4, _⟩ => ⟨S8192, .i32⟩
  | .hbm, ⟨5, _⟩ => ⟨S1x8192, .i32⟩
  | .hbm, ⟨6, _⟩ => ⟨S4x8192, .i32⟩
  | .hbm, ⟨7, _⟩ => ⟨S_, .i32⟩
  | .hbm, ⟨8, _⟩ => ⟨S4x8192, .i32⟩
  | .hbm, ⟨9, _⟩ => ⟨S4x8192, .i1⟩
  | .hbm, ⟨10, _⟩ => ⟨S_, .i32⟩
  | .hbm, ⟨11, _⟩ => ⟨S4x8192, .i32⟩
  | .hbm, ⟨12, _⟩ => ⟨S4x8192, .i32⟩
  | .hbm, ⟨13, _⟩ => ⟨S4x8192, .i32⟩
  | .hbm, ⟨14, _⟩ => ⟨S4x8192x1, .i32⟩
  | .hbm, ⟨15, _⟩ => ⟨S1, .i32⟩
  | .hbm, ⟨16, _⟩ => ⟨S_, .i32⟩
  | .hbm, ⟨17, _⟩ => ⟨S4x8192x1, .i32⟩
  | .hbm, ⟨18, _⟩ => ⟨S4x8192x1, .i1⟩
  | .hbm, ⟨19, _⟩ => ⟨S1x1x1, .i32⟩
  | .hbm, ⟨20, _⟩ => ⟨S4x8192x1, .i32⟩
  | .hbm, ⟨21, _⟩ => ⟨S4x8192x1, .i1⟩
  | .hbm, ⟨22, _⟩ => ⟨S4x8192x1, .i1⟩
  | .hbm, ⟨23, _⟩ => ⟨S_, .i1⟩
  | .hbm, ⟨24, _⟩ => ⟨S4x8192, .i1⟩
  | .hbm, ⟨25, _⟩ => ⟨S4x8192x768, .f32⟩
  | .hbm, ⟨26, _⟩ => ⟨S4x8192x768, .i1⟩
  | .hbm, ⟨27, _⟩ => ⟨S_, .f32⟩
  | .hbm, ⟨28, _⟩ => ⟨S4x8192x768, .f32⟩
  | .hbm, ⟨29, _⟩ => ⟨S4x8192x768, .f32⟩
  | .hbm, ⟨30, _⟩ => ⟨S4x8192x768, .f32⟩
  | .hbm, ⟨31, _⟩ => ⟨S_, .f32⟩
  | .hbm, ⟨32, _⟩ => ⟨S4x8192, .f32⟩
  | .hbm, ⟨33, _⟩ => ⟨S4x8192x1, .f32⟩
  | .hbm, ⟨34, _⟩ => ⟨S_, .f32⟩
  | .hbm, ⟨35, _⟩ => ⟨S4x8192x1, .f32⟩
  | .hbm, ⟨36, _⟩ => ⟨S4x8192x1, .f32⟩
  | .hbm, ⟨37, _⟩ => ⟨S4x8192x768, .f32⟩
  | .hbm, ⟨38, _⟩ => ⟨S4x8192x768, .f32⟩
  | .hbm, ⟨39, _⟩ => ⟨S4x8192x768, .f32⟩
  | .hbm, ⟨40, _⟩ => ⟨S_, .f32⟩
  | .hbm, ⟨41, _⟩ => ⟨S4x8192, .f32⟩
  | .hbm, ⟨42, _⟩ => ⟨S4x8192x1, .f32⟩
  | .hbm, ⟨43, _⟩ => ⟨S_, .f32⟩
  | .hbm, ⟨44, _⟩ => ⟨S4x8192x1, .f32⟩
  | .hbm, ⟨45, _⟩ => ⟨S4x8192x1, .f32⟩
  | .hbm, ⟨46, _⟩ => ⟨S4x8192x768, .f32⟩
  | .hbm, ⟨47, _⟩ => ⟨S4x8192x768, .f32⟩
  | .hbm, ⟨48, _⟩ => ⟨S_, .f32⟩
  | .hbm, ⟨49, _⟩ => ⟨S4x8192x1, .f32⟩
  | .hbm, ⟨50, _⟩ => ⟨S4x8192x1, .f32⟩
  | .hbm, ⟨51, _⟩ => ⟨S4x8192x1, .f32⟩
  | .hbm, ⟨52, _⟩ => ⟨S4x8192x768, .f32⟩
  | .hbm, ⟨53, _⟩ => ⟨S4x8192x768, .f32⟩
  | .hbm, ⟨54, _⟩ => ⟨S1x1x768, .f32⟩
  | .hbm, ⟨55, _⟩ => ⟨S4x8192x768, .f32⟩
  | .hbm, ⟨56, _⟩ => ⟨S4x8192x768, .f32⟩
  | .hbm, ⟨57, _⟩ => ⟨S1x1x768, .f32⟩
  | .hbm, ⟨58, _⟩ => ⟨S4x8192x768, .f32⟩
  | .hbm, ⟨59, _⟩ => ⟨S4x8192x768, .f32⟩
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v3 : Ref sig .tc := ⟨.hbm, 29, rfl⟩
abbrev main_v4 : Ref sig .tc := ⟨.hbm, 30, rfl⟩
abbrev main_cst : Ref sig .tc := ⟨.hbm, 31, rfl⟩
abbrev main_v5 : Ref sig .tc := ⟨.hbm, 32, rfl⟩
abbrev main_v6 : Ref sig .tc := ⟨.hbm, 33, rfl⟩
abbrev main_cst_0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_cst_1 : Ref sig .tc := ⟨.hbm, 40, rfl⟩
abbrev main_v12 : Ref sig .tc := ⟨.hbm, 41, rfl⟩
abbrev main_v13 : Ref sig .tc := ⟨.hbm, 42, rfl⟩
abbrev main_cst_2 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_3 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S4x8192_0_1 : S1x8192.BroadcastsInDim S4x8192 (![0, 1] : Fin 2 → Fin S4x8192.rank)
  bcast_S_S4x8192 : S_.BroadcastsInDim S4x8192 (![] : Fin 0 → Fin S4x8192.rank)
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S1_S1x1x1_2 : S1.BroadcastsInDim S1x1x1 (![2] : Fin 1 → Fin S1x1x1.rank)
  bcast_S1x1x1_S4x8192x1_0_1_2 : S1x1x1.BroadcastsInDim S4x8192x1 (![0, 1, 2] : Fin 3 → Fin S4x8192x1.rank)
  reducesTo_S4x8192x1_S4x8192_d2 : S4x8192x1.ReducesTo [2] S4x8192
  h_S_ : 0 < S_.numel
  bcast_S4x8192_S4x8192x768_0_1 : S4x8192.BroadcastsInDim S4x8192x768 (![0, 1] : Fin 2 → Fin S4x8192x768.rank)
  bcast_S_S4x8192x768 : S_.BroadcastsInDim S4x8192x768 (![] : Fin 0 → Fin S4x8192x768.rank)
  reducesTo_S4x8192x768_S4x8192_d2 : S4x8192x768.ReducesTo [2] S4x8192
  bcast_S4x8192x1_S4x8192x768_0_1_2 : S4x8192x1.BroadcastsInDim S4x8192x768 (![0, 1, 2] : Fin 3 → Fin S4x8192x768.rank)
  bcast_S768_S1x1x768_2 : S768.BroadcastsInDim S1x1x768 (![2] : Fin 1 → Fin S1x1x768.rank)
  bcast_S1x1x768_S4x8192x768_0_1_2 : S1x1x768.BroadcastsInDim S4x8192x768 (![0, 1, 2] : Fin 3 → Fin S4x8192x768.rank)
  gather_S8192x768_S4x8192x1_S4x8192x768_2_0_n_n_0_2_1768_wf : GatherDims.WF S8192x768 S4x8192x1 S4x8192x768 [2] [0] [] [0] [] 2 ![1, 768]

variable [Facts₀]

def gather_S8192x768_S4x8192x1_S4x8192x768_2_0_n_n_0_2_1768 : GatherDims S8192x768 S4x8192x1 S4x8192x768 where
  offsetDims := [2]
  collapsedSliceDims := [0]
  operandBatchingDims := []
  startIndicesBatchingDims := []
  startIndexMap := [0]
  indexVectorDim := 2
  sliceSizes := ![1, 768]
  wf := gather_S8192x768_S4x8192x1_S4x8192x768_2_0_n_n_0_2_1768_wf

class Facts : Prop extends Facts₀ where

variable [Facts]
-- ==== Proof.Spec.lean ====
/-
  Layer normalisation of x + pos along the last axis, in the two arrangements the two programs use.

  Both programs add a positional table to the input (x[b, s, :] + pos[s, :]), normalise every row of 768
  entries to zero mean and unit variance with a small constant eps under the root, and then scale by g
  and shift by b. They differ in how the row statistics are taken:

  * ONE PASS: the mean is (Σ y) · c and the variance (Σ y²) · c − mean², with c the reciprocal of the
    count, and the entry is multiplied by the reciprocal square root of variance + eps;
  * TWO PASSES: the mean is (Σ y) / n, the variance the mean (Σ (y − mean)²) / n of the squared
    deviations, and the entry is divided by the square root of variance + eps.

  This module only states the two forms, entry by entry over the extended reals, and the whole output array
  in the one-pass form; that the two agree on rows of real numbers is proved separately.
-/
import Idealize.ShloMosaic.PureOps.Ideal
import Idealize.ShloMosaic.Lib.ValueIdx

noncomputable section

namespace Cert.PosLayerNorm

open Idealize.ShloMosaic Idealize.ShloMosaic.ValueIdx
open scoped BigOperators

/-- The input and output arrays: batch 4, sequence 8192, width 768. -/
abbrev SX : Shape := ⟨3, ![4, 8192, 768]⟩
/-- The positional table: one row of width 768 per sequence position. -/
abbrev SP : Shape := ⟨2, ![8192, 768]⟩
/-- Scale and shift: one entry per column. -/
abbrev SV : Shape := ⟨1, ![768]⟩

/-- The constant under the root, the same f32 word in both programs (about 1e-12). -/
def eps : EReal := Ideal.ofBits .f32 0x2B8CBCCC#32

/-- Row (b, s) of x + pos: entry k is x[b, s, k] + pos[s, k]. -/
def row (x : SX.Idx → EReal) (pos : SP.Idx → EReal) (b : Fin 4) (s : Fin 8192) (k : Fin 768) : EReal :=
  x (ix3 b s k) + pos (ix2 s k)

/-- ONE PASS over a row y, with c standing for the reciprocal of the count: entry k less the mean
    (Σ y) · c, times the reciprocal root of (Σ y²) · c − mean² + eps, times the scale, plus the shift. -/
def onePass (c : EReal) (y : Fin 768 → EReal) (g b : EReal) (k : Fin 768) : EReal :=
  (y k - (∑ j, y j) * c)
      * Ideal.rsqrt ((∑ j, y j * y j) * c - (∑ j, y j) * c * ((∑ j, y j) * c) + eps)
    * g + b

/-- TWO PASSES over a row y, with n the count: entry k less the mean (Σ y) / n, divided by the root
    of the mean squared deviation plus eps, times the scale, plus the shift. -/
def twoPass (n : EReal) (y : Fin 768 → EReal) (g b : EReal) (k : Fin 768) : EReal :=
  Ideal.div (y k - Ideal.div (∑ j, y j) n)
      (Ideal.sqrt (Ideal.div (∑ j, (y j - Ideal.div (∑ i, y i) n) * (y j - Ideal.div (∑ i, y i) n)) n + eps))
    * g + b

/-- The whole output array in the one-pass form with c = 1/768: entry (b, s, k) is row (b, s) of
    x + pos normalised at k, scaled by g[k] and shifted by b[k]. -/
def out (x : SX.Idx → EReal) (pos : SP.Idx → EReal) (g b : SV.Idx → EReal) : SX.Idx → EReal := fun i =>
  onePass ((1 / 768 : ℝ) : EReal) (row x pos (i 0) (i 1)) (g (ix1 (i 2))) (b (ix1 (i 2))) (i 2)

/-- The output array at literal coordinates. -/
theorem out_ix3 (x : SX.Idx → EReal) (pos : SP.Idx → EReal) (g b : SV.Idx → EReal)
    (bb : Fin 4) (s : Fin 8192) (k : Fin 768) :
    out x pos g b (ix3 bb s k)
      = onePass ((1 / 768 : ℝ) : EReal) (row x pos bb s) (g (ix1 k)) (b (ix1 k)) k := rfl

end Cert.PosLayerNorm

end
-- ==== Proof.KernelValuePoint.lean ====
/-
  One grid point of the kernel, one entry of its output block.

  A grid point holds a [1, 512, 768] block of x, the matching [512, 768] block of the positional table and
  the [1, 768] scale and shift. The body drops the block's unit axis, adds the table, takes two lane sums
  along the 768 entries of every row (the entries, and their squares), and from them forms, entry by entry,

      (y − (Σ y) · c) · rsqrt((Σ y²) · c − ((Σ y) · c)² + eps) · g + b,       y = x + pos,  c = 1/768.

  The stored block at a block index is one expression of the loaded blocks, with the two lane sums kept
  whole (Value.E4). This module reads that expression at the block index (0, p, q) over the extended reals:
  the named constant is the rational 1/768, a lane sum at row p is the finite sum over that row, the shape
  cast of the block of x at (p, j) is the block at (0, p, j) — and what is left is, term for term, the
  one-pass form of the specification on the row j ↦ x-block(0, p, j) + pos-block(p, j).
-/
import proofs.«177086_g13082470383893_cont_sun_c4_756_2_alg».proof.Proof.Gen.KernelIdeal.Value
import proofs.«177086_g13082470383893_cont_sun_c4_756_2_alg».proof.Proof.Spec

import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

noncomputable section

namespace Cert.KernelIdeal.ArrayValue

open Cert.KernelIdeal Cert.KernelIdeal.Gen Idealize.ShloMosaic Idealize.ShloMosaic.TcCoe Idealize.SL.Sem
open Idealize.ShloMosaic.ValueIdx
open scoped BigOperators

/-- The kernel's named reciprocal of the row length denotes the rational 1/768. -/
theorem inv_768 : Named.named (F := Ideal) κ "inv_768" (φ := .f32) 0x3AAAAAAB#32 = ((1 / 768 : ℝ) : EReal) :=
  IdealRules.named_const.ideal_named_scalar _ _ _ _ rfl

/-- A lane sum of a [512, 768] block at row p is the sum of that row's 768 entries. -/
theorem laneSum (src : FVec Ideal S512x768 .f32) (hφ : FKind.Formats .f32)
    (hacc : (0x00000000#32 : BitVec 32) = 0x00000000#32) (p : Fin 512) :
    multiReduction .add [1] S512 src 0x00000000#32 reduces_S512x768_S512 hφ hacc (ix1 p)
      = ∑ j : Fin 768, src (ix2 p j) := by
  refine (Ideal.multiReduction_add_single src 0x00000000#32 reduces_S512x768_S512 hφ hacc (ix1 p)).trans ?_
  show ∑ k : Fin 768, src (reduces_S512x768_S512.lift (ix1 p) k) = _
  refine Finset.sum_congr rfl fun k _ => congrArg src ?_
  funext a
  match a with
  | ⟨0, _⟩ => rfl
  | ⟨1, _⟩ => rfl

/-- Row p of the block of x with the leading unit axis dropped, plus row p of the block of pos. -/
theorem rowEntry (P0 : Vec Ideal S1x512x768 .f32) (P1 : Vec Ideal S512x768 .f32) (p : Fin 512) (j : Fin 768) :
    (addf (shapeCast S512x768 P0 shapeCasts_S1x512x768_S512x768) P1 : FVec Ideal S512x768 .f32) (ix2 p j)
      = P0 (ix3 (0 : Fin 1) p j) + P1 (ix2 p j) := by
  show shapeCast S512x768 P0 shapeCasts_S1x512x768_S512x768 (ix2 p j) + P1 (ix2 p j) = _
  rw [shapeCast_1ab_ab_apply]

/-- The stored block at (0, p, q) is the one-pass normalisation of row p of x-block + pos-block at entry q,
    scaled and shifted by the q-th entries of the scale and shift blocks. -/
theorem E4_point (P0 : Vec Ideal S1x512x768 .f32) (P1 : Vec Ideal S512x768 .f32) (P2 P3 : Vec Ideal S1x768 .f32)
    (p : Fin 512) (q : Fin 768) :
    Value.E4 P0 P1 P2 P3 (ix3 (0 : Fin 1) p q)
      = Cert.PosLayerNorm.onePass ((1 / 768 : ℝ) : EReal) (fun j => P0 (ix3 (0 : Fin 1) p j) + P1 (ix2 p j))
          (P2 (ix2 (0 : Fin 1) q)) (P3 (ix2 (0 : Fin 1) q)) q := by
  have i0 : Value.ix4_0 (ix3 (0 : Fin 1) p q) = ix3 (0 : Fin 1) p q :=
    funext fun a => match a with | ⟨0, _⟩ => rfl | ⟨1, _⟩ => rfl | ⟨2, _⟩ => rfl
  have i1 : Value.ix4_1 (ix3 (0 : Fin 1) p q) = ix2 p q :=
    funext fun a => match a with | ⟨0, _⟩ => rfl | ⟨1, _⟩ => rfl
  have i2 : Value.ix4_2 (ix3 (0 : Fin 1) p q) = ix1 p := funext fun a => match a with | ⟨0, _⟩ => rfl
  have i3 : Value.ix4_3 (ix3 (0 : Fin 1) p q) = ix1 p := funext fun a => match a with | ⟨0, _⟩ => rfl
  have i4 : Value.ix4_4 (ix3 (0 : Fin 1) p q) = ix1 p := funext fun a => match a with | ⟨0, _⟩ => rfl
  have i5 : Value.ix4_5 (ix3 (0 : Fin 1) p q) = ix1 p := funext fun a => match a with | ⟨0, _⟩ => rfl
  have i6 : Value.ix4_6 (ix3 (0 : Fin 1) p q) = ix2 (0 : Fin 1) q :=
    funext fun a => match a with | ⟨0, _⟩ => rfl | ⟨1, _⟩ => rfl
  have i7 : Value.ix4_7 (ix3 (0 : Fin 1) p q) = ix2 (0 : Fin 1) q :=
    funext fun a => match a with | ⟨0, _⟩ => rfl | ⟨1, _⟩ => rfl
  have hS : ∀ (hφ : FKind.Formats .f32) (hacc : (0x00000000#32 : BitVec 32) = 0x00000000#32),
      multiReduction (F := Ideal) (φ := .f32) .add [1] S512 (addf (shapeCast S512x768 P0 shapeCasts_S1x512x768_S512x768) P1) 0x00000000#32 reduces_S512x768_S512 hφ hacc (ix1 p)
        = ∑ j : Fin 768, (P0 (ix3 (0 : Fin 1) p j) + P1 (ix2 p j)) := fun hφ hacc =>
    (laneSum _ hφ hacc p).trans (Finset.sum_congr rfl fun j _ => rowEntry P0 P1 p j)
  have hQ : ∀ (hφ : FKind.Formats .f32) (hacc : (0x00000000#32 : BitVec 32) = 0x00000000#32),
      multiReduction (F := Ideal) (φ := .f32) .add [1] S512 (mulf (addf (shapeCast S512x768 P0 shapeCasts_S1x512x768_S512x768) P1) (addf (shapeCast S512x768 P0 shapeCasts_S1x512x768_S512x768) P1)) 0x00000000#32 reduces_S512x768_S512 hφ hacc (ix1 p)
        = ∑ j : Fin 768, (P0 (ix3 (0 : Fin 1) p j) + P1 (ix2 p j)) * (P0 (ix3 (0 : Fin 1) p j) + P1 (ix2 p j)) := fun hφ hacc =>
    (laneSum _ hφ hacc p).trans (Finset.sum_congr rfl fun j _ => by
      show (addf (shapeCast S512x768 P0 shapeCasts_S1x512x768_S512x768) P1 : FVec Ideal S512x768 .f32) (ix2 p j) * (addf (shapeCast S512x768 P0 shapeCasts_S1x512x768_S512x768) P1 : FVec Ideal S512x768 .f32) (ix2 p j) = _
      rw [rowEntry])
  unfold Cert.PosLayerNorm.onePass
  show FloatOps.addf (FloatOps.mulf (FloatOps.mulf (FloatOps.subf (FloatOps.addf (P0 (Value.ix4_0 (ix3 (0 : Fin 1) p q))) (P1 (Value.ix4_1 (ix3 (0 : Fin 1) p q)))) (FloatOps.mulf (multiReduction (F := Ideal) (φ := .f32) .add [1] S512 _ 0x00000000#32 reduces_S512x768_S512 _ _ (Value.ix4_2 (ix3 (0 : Fin 1) p q))) _)) _) _) _ = _
  rw [i0, i1, i2, i3, i4, i5, i6, i7, hS, hQ, inv_768]
  rfl

end Cert.KernelIdeal.ArrayValue
end
-- ==== Proof.KernelValueBlock.lean ====
/-
  What one grid point writes back is its block of the layer-normalised array.

  The grid is 16 × 4. At the point with coordinates (i0, i1) the kernel holds
    * rows 512·i0 … 512·i0 + 511 of batch entry i1 of x            (a [1, 512, 768] block),
    * rows 512·i0 … 512·i0 + 511 of the positional table           (a [512, 768] block),
    * the whole scale and the whole shift, each viewed as a [1, 768] array,
  and writes a [1, 512, 768] block back to rows 512·i0 … of batch entry i1 of the output. An entry of a block
  always sits in its array at (block index) × (block size) + (its coordinate inside the block), axis by axis.

  So entry (0, p, q) of the written block is entry (i1, 512·i0 + p, q) of the output array; the row of x + pos
  it is normalised over is row (i1, 512·i0 + p) of x plus row 512·i0 + p of the table; and the scale and shift it
  uses are entries q of the two vectors, the [1, 768] view of a vector of 768 entries read at (0, q) being the
  vector at q. With the reading of one block entry as the one-pass form, this makes the written block the
  matching block of the specification's output array.
-/
import proofs.«177086_g13082470383893_cont_sun_c4_756_2_alg».proof.Proof.Gen.KernelIdeal.Value
import proofs.«177086_g13082470383893_cont_sun_c4_756_2_alg».proof.Proof.Spec
import proofs.«177086_g13082470383893_cont_sun_c4_756_2_alg».proof.Proof.KernelValuePoint
import Idealize.ShloMosaic.Lib.Pipeline.Value
import Idealize.ShloMosaic.Lib.StableHlo.Run
import Idealize.ShloMosaic.Lib.ValueIdx
import Idealize.ShloMosaic.Lib.ValueLayout

noncomputable section

namespace Cert.KernelIdeal.ArrayValue

open Cert.KernelIdeal Cert.KernelIdeal.Gen Idealize.ShloMosaic Idealize.ShloMosaic.TcCoe Idealize.SL.Sem
open Idealize.ShloMosaic.ValueIdx
open scoped BigOperators

/-- The body loads and stores whole blocks: every access starts at offset zero on every axis. -/
theorem zero_offsets3 : (![0, 0, 0] : Fin 3 → Nat) = fun _ => 0 := funext fun a => by fin_cases a <;> rfl
theorem zero_offsets2 : (![0, 0] : Fin 2 → Nat) = fun _ => 0 := funext fun a => by fin_cases a <;> rfl

/-- ONE ENTRY OF THE WRITTEN BLOCK, over arbitrary blocks: if row p of the block of x is row (bb, s) of an
    array x, row p of the block of pos is row s of a table pos, and the scale and shift blocks at (0, q) are
    entries q of vectors g and b, then the block the body leaves holds at (0, p, q) the specification's output
    of x, pos, g, b at (bb, s, q). -/
theorem out_block_entry (X0 : Vec Ideal S1x512x768 .f32) (X1 : Vec Ideal S512x768 .f32) (X2 X3 : Vec Ideal S1x768 .f32)
    (x : Cert.PosLayerNorm.SX.Idx → EReal) (pos : Cert.PosLayerNorm.SP.Idx → EReal) (g b : Cert.PosLayerNorm.SV.Idx → EReal)
    (bb : Fin 4) (s : Fin 8192) (p : Fin 512) (q : Fin 768)
    (h0 : ∀ j : Fin 768, X0 (ix3 (0 : Fin 1) p j) = x (ix3 bb s j))
    (h1 : ∀ j : Fin 768, X1 (ix2 p j) = pos (ix2 s j))
    (h2 : X2 (ix2 (0 : Fin 1) q) = g (ix1 q)) (h3 : X3 (ix2 (0 : Fin 1) q) = b (ix1 q)) :
    Gen.out0_4 X0 X1 X2 X3 (ix3 (0 : Fin 1) p q) = Cert.PosLayerNorm.out x pos g b (ix3 bb s q) := by
  unfold Gen.out0_4
  rw [View.ld_unit_zero (S := S1x512x768) zero_offsets3, View.ld_unit_zero (S := S512x768) zero_offsets2,
    View.ld_unit_zero (S := S1x768) zero_offsets2, View.ld_unit_zero (S := S1x768) zero_offsets2]
  rw [Value.canon4_eq, E4_point, Cert.PosLayerNorm.out_ix3, h2, h3]
  have hrow : (fun j : Fin 768 => X0 (ix3 (0 : Fin 1) p j) + X1 (ix2 p j)) = Cert.PosLayerNorm.row x pos bb s :=
    funext fun j => by rw [h0 j, h1 j]; rfl
  rw [hrow]

variable (m : (ℓ : Loc nD τ sig) → Buf (Elt Ideal) ℓ) (ρ : Dev nD → PrngReg)

/-- Before the grid runs, the scale vector of 768 entries is viewed as a [1, 768] array; that view is what the
    third input window reads. -/
theorem staged_scale (c : Dev nD) :
    (V m c main_call0_v0 : S1x768.Idx → EReal)
      = shapeCast S1x768 (m ((c.tc : Thread nD τ).loc main_arg2)) shapeCasts_S768_S1x768 := by
  dsimp only [Gen.V, Gen.hostOps0]
  after_results
  rfl

/-- Likewise the shift vector, read by the fourth input window. -/
theorem staged_shift (c : Dev nD) :
    (V m c main_call0_v1 : S1x768.Idx → EReal)
      = shapeCast S1x768 (m ((c.tc : Thread nD τ).loc main_arg3)) shapeCasts_S768_S1x768 := by
  dsimp only [Gen.V, Gen.hostOps0]
  after_results
  rfl

/-- The block indices at a grid point, checked over the 64 points: the block of x moves with the output block;
    the block of pos follows the output's row-block index and has column-block index 0; the scale and shift
    blocks stay at (0, 0); the output's batch index is below 4, its row-block index below 16, its column-block
    index 0. -/
theorem block_index_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 2) = win0_4.index t (1 : Fin 3) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) < 4 ∧ win0_4.index t (1 : Fin 3) < 16 ∧ win0_4.index t (2 : Fin 3) = 0 :=
  (by decide +kernel : ∀ t : Fin grid0.N, _)

/-- The specification's output array of the four argument arrays as launched. -/
abbrev normalised (c : Dev nD) : Cert.PosLayerNorm.SX.Idx → EReal :=
  Cert.PosLayerNorm.out (m ((c.tc : Thread nD τ).loc main_arg0)) (m ((c.tc : Thread nD τ).loc main_arg1))
    (m ((c.tc : Thread nD τ).loc main_arg2)) (m ((c.tc : Thread nD τ).loc main_arg3))

/-- WHAT POINT t WRITES BACK is block t of the normalised array: entry (0, p, q) of the written block is the
    array's entry (i1, 512·i0 + p, q), each input block being read at the matching place of its own array. -/
theorem written_block (c : Dev nD) (t : Fin cfg0.N) :
    (dats m 0 c).flushed 4 t = ((cfg0.win 4).blk t).view.read (Elt Ideal) (normalised m c) := by
  rw [Value.flushed4]
  obtain ⟨e00, e01, e02, e10, e11, e20, e21, e30, e31, b0, b1, e42⟩ := block_index_facts t
  refine funext fun (y : S1x512x768.Idx) => ?_
  show Gen.out0_4 (iblk m c 0 t) (iblk m c 1 t) (iblk m c 2 t) (iblk m c 3 t) y
    = normalised m c (((cfg0.win 4).blk t).view.emb y)
  obtain ⟨u, p, q, rfl⟩ : ∃ (u : Fin 1) (p : Fin 512) (q : Fin 768), y = ix3 u p q := ⟨y 0, y 1, y 2, eq_ix3 y⟩
  obtain rfl : u = 0 := Subsingleton.elim _ _
  have hp : p.val < 512 := p.isLt
  have hq : q.val < 768 := q.isLt
  -- where entry (0, p, q) of the output block sits in the output array
  have h4 : ((cfg0.win 4).blk t).view.emb (ix3 (0 : Fin 1) p q)
      = ix3 (⟨win0_4.index t (0 : Fin 3), b0⟩ : Fin 4)
          (⟨win0_4.index t (1 : Fin 3) * 512 + p.val, by omega⟩ : Fin 8192) q := by
    funext a; apply Fin.ext
    match a with
    | ⟨0, _⟩ => show win0_4.index t (0 : Fin 3) * 1 + 1 * 0 = win0_4.index t (0 : Fin 3); omega
    | ⟨1, _⟩ => show win0_4.index t (1 : Fin 3) * 512 + 1 * p.val = win0_4.index t (1 : Fin 3) * 512 + p.val; omega
    | ⟨2, _⟩ => show win0_4.index t (2 : Fin 3) * 768 + 1 * q.val = q.val; omega
  rw [h4]
  refine out_block_entry _ _ _ _ _ _ _ _ _ _ p q (fun j => ?_) (fun j => ?_) ?_ ?_
  · -- row p of the block of x is row (i1, 512·i0 + p) of x
    have hj : j.val < 768 := j.isLt
    show V m c main_arg0 (((cfg0.win 0).blk t).view.emb (ix3 (0 : Fin 1) p j)) = _
    refine (congrFun (V_main_arg0 m c) _).trans (congrArg _ ?_)
    funext a; apply Fin.ext
    match a with
    | ⟨0, _⟩ => show win0_0.index t (0 : Fin 3) * 1 + 1 * 0 = win0_4.index t (0 : Fin 3); omega
    | ⟨1, _⟩ => show win0_0.index t (1 : Fin 3) * 512 + 1 * p.val = win0_4.index t (1 : Fin 3) * 512 + p.val; omega
    | ⟨2, _⟩ => show win0_0.index t (2 : Fin 3) * 768 + 1 * j.val = j.val; omega
  · -- row p of the block of pos is row 512·i0 + p of the table
    have hj : j.val < 768 := j.isLt
    show V m c main_arg1 (((cfg0.win 1).blk t).view.emb (ix2 p j)) = _
    refine (congrFun (V_main_arg1 m c) _).trans (congrArg _ ?_)
    funext a; apply Fin.ext
    match a with
    | ⟨0, _⟩ => show win0_1.index t (0 : Fin 2) * 512 + 1 * p.val = win0_4.index t (1 : Fin 3) * 512 + p.val; omega
    | ⟨1, _⟩ => show win0_1.index t (1 : Fin 2) * 768 + 1 * j.val = j.val; omega
  · -- the scale block at (0, q) is the scale vector at q
    show V m c main_call0_v0 (((cfg0.win 2).blk t).view.emb (ix2 (0 : Fin 1) q)) = _
    refine (congrFun (staged_scale m c) _).trans ?_
    refine Eq.trans (congrArg _ ?_) (shapeCast_a_1a_apply _ _ (0 : Fin 1) q)
    funext a; apply Fin.ext
    match a with
    | ⟨0, _⟩ => show win0_2.index t (0 : Fin 2) * 1 + 1 * 0 = 0; omega
    | ⟨1, _⟩ => show win0_2.index t (1 : Fin 2) * 768 + 1 * q.val = q.val; omega
  · -- the shift block at (0, q) is the shift vector at q
    show V m c main_call0_v1 (((cfg0.win 3).blk t).view.emb (ix2 (0 : Fin 1) q)) = _
    refine (congrFun (staged_shift m c) _).trans ?_
    refine Eq.trans (congrArg _ ?_) (shapeCast_a_1a_apply _ _ (0 : Fin 1) q)
    funext a; apply Fin.ext
    match a with
    | ⟨0, _⟩ => show win0_3.index t (0 : Fin 2) * 1 + 1 * 0 = 0; omega
    | ⟨1, _⟩ => show win0_3.index t (1 : Fin 2) * 768 + 1 * q.val = q.val; omega

end Cert.KernelIdeal.ArrayValue

end
-- ==== Proof.KernelValueCover.lean ====
/-
  The output blocks cover the output array.

  The output array is [4, 8192, 768] and a block is [1, 512, 768]: the blocks are indexed by (batch entry,
  row block) ∈ 4 × 16, with column-block index 0, and each of the 64 grid points writes one of them. Entry
  (bb, s, k) of the array lies in the block with index (bb, s / 512, 0), and every such index is some grid
  point's.
-/
import proofs.«177086_g13082470383893_cont_sun_c4_756_2_alg».proof.Proof.Gen.KernelIdeal.Value
import proofs.«177086_g13082470383893_cont_sun_c4_756_2_alg».proof.Proof.Spec
import Idealize.ShloMosaic.Lib.Pipeline.Value

noncomputable section

namespace Cert.KernelIdeal.ArrayValue

open Cert.KernelIdeal Cert.KernelIdeal.Gen Idealize.ShloMosaic Idealize.ShloMosaic.TcCoe Idealize.SL.Sem
open Idealize.ShloMosaic.ValueIdx
open scoped BigOperators

/-- An entry of the output array is in point t's block iff, axis by axis, its coordinate is in the block's
    range: from (block index) × (block size), for (block size) places. -/
theorem mem_out_block (t : Fin cfg0.N) (i : S4x8192x768.Idx) :
    i ∈ ((cfg0.win 4).blk t).view.set ↔ ∀ a : Fin 3, win0_4.index t a * S1x512x768.size a ≤ (i a).val
      ∧ (i a).val < win0_4.index t a * S1x512x768.size a + S1x512x768.size a := by
  show i ∈ ((View.whole main_v0).slice (win0_4.rect t)).set ↔ _
  rw [View.set_slice_whole, Rect.mem_set_unit]
  exact Iff.rfl

/-- Every block index (batch entry, row block, 0) is some grid point's (checked over the 4 × 16 indices). -/
theorem block_index_onto : ∀ (q0 : Fin 4) (q1 : Fin 16), ∃ t : Fin cfg0.N, win0_4.index t = ![q0.val, q1.val, 0] :=
  (by decide +kernel : ∀ (q0 : Fin 4) (q1 : Fin 16), ∃ t : Fin grid0.N, win0_4.index t = ![q0.val, q1.val, 0])

/-- Every entry (bb, s, k) of the output array is in the block some point writes back: the one with batch
    entry bb and row block s / 512. -/
theorem blocks_cover (i : S4x8192x768.Idx) :
    ∃ t : Fin cfg0.N, (cfg0.win 4).flush t = true ∧ i ∈ ((cfg0.win 4).blk t).view.set := by
  have hi0 : (i 0).val < 4 := (i 0).isLt
  have hi1 : (i 1).val < 8192 := (i 1).isLt
  have hi2 : (i 2).val < 768 := (i 2).isLt
  obtain ⟨t, ht⟩ := block_index_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_out_block]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 768 ≤ (i 2).val ∧ (i 2).val < win0_4.index t (2 : Fin 3) * 768 + 768; omega

end Cert.KernelIdeal.ArrayValue

end
-- ==== Proof.KernelValue.lean ====
/-
  The kernel's result array is the specification's output.

  Each grid point writes back its block of the normalised array, and the 64 blocks cover the array; so after
  the run the result array holds, entry by entry, the one-pass layer normalisation of x + pos scaled by g and
  shifted by b, and the four argument arrays are as launched.
-/
import proofs.«177086_g13082470383893_cont_sun_c4_756_2_alg».proof.Proof.Gen.KernelIdeal.Value
import proofs.«177086_g13082470383893_cont_sun_c4_756_2_alg».proof.Proof.Spec
import proofs.«177086_g13082470383893_cont_sun_c4_756_2_alg».proof.Proof.KernelValueBlock
import proofs.«177086_g13082470383893_cont_sun_c4_756_2_alg».proof.Proof.KernelValueCover
import Idealize.ShloMosaic.Lib.Pipeline.Value

noncomputable section

namespace Cert.KernelIdeal.ArrayValue

open Cert.KernelIdeal Cert.KernelIdeal.Gen Idealize.ShloMosaic Idealize.ShloMosaic.TcCoe Idealize.SL.Sem
open Idealize.ShloMosaic.ValueIdx
open scoped BigOperators

variable (m : (ℓ : Loc nD τ sig) → Buf (Elt Ideal) ℓ) (ρ : Dev nD → PrngReg)

/-- The result array after the last grid point is the normalised array. -/
theorem array_eq (c : Dev nD) : (dats m 0 c).arrAt 4 cfg0.N = normalised m c :=
  (dats m 0 c).arrAt_eq_of_cover 4 (normalised m c) (fun t _ => written_block m c t) blocks_cover

/-- The kernel program's run: it ends with the result array at the specification's output of the four
    arguments, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v0)
          = Cert.PosLayerNorm.out (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (array_eq m c), (h c).2⟩) (Value.run_blocks m ρ)

end Cert.KernelIdeal.ArrayValue

end
-- ==== Proof.RefStages.lean ====
/-
  The reference program's result as one term of its four argument arrays, stage by stage.

  The reference looks the positional rows up by index: it builds the positions 0, 1, …, 8191 for every batch
  entry, wraps negative positions, gathers one table row per position (the gather clamps its start index into
  the table), and fills a row whose position lies outside the table with a not-a-number pattern. It adds the
  gathered rows to the input, takes each row's mean and the mean of its squared deviations (each a sum over
  the last axis divided by 768), divides the centred entry by the root of the variance plus a small constant,
  and scales and shifts by the two vectors. Each stage below is one such step as a function of arrays; the
  last, the result array, composes them. Nothing is proved here: the stages are read at an index, and
  identified with the program's run, elsewhere.
-/
import proofs.«177086_g13082470383893_cont_sun_c4_756_2_alg».proof.Proof.Gen.ReferenceIdeal

noncomputable section

namespace Cert.ReferenceIdeal.Stages

open Cert.ReferenceIdeal Cert.ReferenceIdeal.Facts₀ Idealize.ShloMosaic

variable {F : FTy → Type} [FloatOps F]

/-- The positions: entry (b, s) is the word s, for every batch entry b. -/
def positions : IVec S4x8192 32 :=
  broadcastInDim S4x8192 ![0, 1] bcast_S1x8192_S4x8192_0_1
    (broadcastInDim S1x8192 ![1] bcast_S8192_S1x8192_1 (iotaInDim S8192 32 0))

/-- A negative position counts from the table's end: 8192 is added to it. -/
def wrapped (idx : IVec S4x8192 32) : IVec S4x8192 32 :=
  select (cmpi .slt idx (broadcastInDim S4x8192 ![] bcast_S_S4x8192 (constantI S_ 32 0#32)))
    (addi idx (broadcastInDim S4x8192 ![] bcast_S_S4x8192 (constantI S_ 32 8192#32))) idx

/-- The wrapped positions as the gather's start indices: one index vector of length one per (b, s). -/
def startIdx (idx : IVec S4x8192 32) : IVec S4x8192x1 32 :=
  broadcastInDim S4x8192x1 ![0, 1] bcast_S4x8192_S4x8192x1_0_1 (wrapped idx)

/-- Whether the start index of (b, s) lies inside the table: 0 ≤ it ≤ 8191, every component (there is one). -/
def inTable (idx : IVec S4x8192 32) : IVec S4x8192 1 :=
  Host.reduce IntOp.andi
    (andi (cmpi .sge (startIdx idx) (broadcastInDim S4x8192x1 ![] bcast_S_S4x8192x1 (constantI S_ 32 0#32)))
      (cmpi .sle (startIdx idx)
        (broadcastInDim S4x8192x1 ![0, 1, 2] bcast_S1x1x1_S4x8192x1_0_1_2
          (broadcastInDim S1x1x1 ![2] bcast_S1_S1x1x1_2 (constantI S1 32 8191#32)))))
    (constantI S_ 1 1#1) reducesTo_S4x8192x1_S4x8192_d2 h_S_

/-- The table's rows taken at the positions: the gathered row where the position is inside the table, the
    not-a-number pattern elsewhere. -/
def takeRows (tbl : FVec F S8192x768 .f32) (idx : IVec S4x8192 32) : FVec F S4x8192x768 .f32 :=
  select (broadcastInDim S4x8192x768 ![0, 1] bcast_S4x8192_S4x8192x768_0_1 (inTable idx))
    (Host.gather gather_S8192x768_S4x8192x1_S4x8192x768_2_0_n_n_0_2_1768 tbl (startIdx idx))
    (broadcastInDim S4x8192x768 ![] bcast_S_S4x8192x768 (constant (F := F) S_ .f32 0x7FC00000#32))

/-- The input plus the positional rows. -/
def summed (x : FVec F S4x8192x768 .f32) (pos : FVec F S8192x768 .f32) : FVec F S4x8192x768 .f32 :=
  addf x (takeRows pos positions)

/-- Each row's sum over the last axis divided by 768, kept as a column [4, 8192, 1]. -/
def meanCol (y : FVec F S4x8192x768 .f32) : FVec F S4x8192x1 .f32 :=
  Host.divf
    (broadcastInDim S4x8192x1 ![0, 1] bcast_S4x8192_S4x8192x1_0_1
      (Host.reduceAdd y (constant (F := F) S_ .f32 0x00000000#32) reducesTo_S4x8192x768_S4x8192_d2 h_S_))
    (broadcastInDim S4x8192x1 ![] bcast_S_S4x8192x1 (constant (F := F) S_ .f32 0x44400000#32))

/-- Each entry less its row's mean. -/
def centred (y : FVec F S4x8192x768 .f32) : FVec F S4x8192x768 .f32 :=
  subf y (broadcastInDim S4x8192x768 ![0, 1, 2] bcast_S4x8192x1_S4x8192x768_0_1_2 (meanCol y))

/-- Each row's mean squared deviation, as a column. -/
def varCol (y : FVec F S4x8192x768 .f32) : FVec F S4x8192x1 .f32 :=
  Host.divf
    (broadcastInDim S4x8192x1 ![0, 1] bcast_S4x8192_S4x8192x1_0_1
      (Host.reduceAdd (mulf (centred y) (centred y)) (constant (F := F) S_ .f32 0x00000000#32)
        reducesTo_S4x8192x768_S4x8192_d2 h_S_))
    (broadcastInDim S4x8192x1 ![] bcast_S_S4x8192x1 (constant (F := F) S_ .f32 0x44400000#32))

/-- Each centred entry divided by the root of its row's variance plus the small constant. -/
def normed (y : FVec F S4x8192x768 .f32) : FVec F S4x8192x768 .f32 :=
  Host.divf (centred y)
    (broadcastInDim S4x8192x768 ![0, 1, 2] bcast_S4x8192x1_S4x8192x768_0_1_2
      (Host.sqrt (addf (varCol y)
        (broadcastInDim S4x8192x1 ![] bcast_S_S4x8192x1 (constant (F := F) S_ .f32 0x2B8CBCCC#32)))))

/-- A vector of 768 entries laid along the last axis of the full array. -/
def alongLast (v : FVec F S768 .f32) : FVec F S4x8192x768 .f32 :=
  broadcastInDim S4x8192x768 ![0, 1, 2] bcast_S1x1x768_S4x8192x768_0_1_2
    (broadcastInDim S1x1x768 ![2] bcast_S768_S1x1x768_2 v)

/-- The reference's result array as one term of its arguments. -/
def result (x : FVec F S4x8192x768 .f32) (pos : FVec F S8192x768 .f32) (g b : FVec F S768 .f32) :
    FVec F S4x8192x768 .f32 :=
  addf (mulf (normed (summed x pos)) (alongLast g)) (alongLast b)

end Cert.ReferenceIdeal.Stages

end
-- ==== Proof.RefRun.lean ====
/-
  The reference program's run, written out operation by operation.

  The reference's entry function calls a helper that looks table rows up by index, and that helper calls a
  second one that chooses between two index arrays elementwise. A call executes the callee's body on the
  operands, each value of the body held in a buffer of its own, so the whole program is one straight line of
  56 array operations: 3 that build the positions, the 23 of the row lookup (the elementwise choice among
  them), and 30 that add the rows to the input and normalise. This file lists that line, shows the entry
  function equal to it, and reads the run back: every weakly fair execution terminates, the result buffer
  holds the composed term of the four argument arrays (the stages of RefStages.lean), and the arguments are
  unchanged.
-/
import proofs.«177086_g13082470383893_cont_sun_c4_756_2_alg».proof.Proof.RefStages
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The entry function's 56 operations in order, the two calls unfolded: the lookup helper's operations over
    its call's buffers, its two arguments the positional table and the positions; the elementwise choice
    over the buffer of the nested call. -/
abbrev ops : List (HloOp τ sig (Elt F)) :=
  [
    nullary main_v0 (iotaInDim S8192 32 0),
    unary main_v0 main_v1 (broadcastInDim S1x8192 ![1] bcast_S8192_S1x8192_1 : (⟨S8192, .i32⟩ : BufTy).Contents (Elt F) → (⟨S1x8192, .i32⟩ : BufTy).Contents (Elt F)),
    unary main_v1 main_v2 (broadcastInDim S4x8192 ![0, 1] bcast_S1x8192_S4x8192_0_1 : (⟨S1x8192, .i32⟩ : BufTy).Contents (Elt F) → (⟨S4x8192, .i32⟩ : BufTy).Contents (Elt F)),
    TRef.nullary main_call0.c (constantI S_ 32 0#32),
    TRef.unary main_call0.c main_call0.v0 (broadcastInDim S4x8192 ![] bcast_S_S4x8192),
    TRef.binary (.of main_v2 : TRef sig ⟨S4x8192, .i32⟩) main_call0.v0 main_call0.v1 (cmpi .slt),
    TRef.nullary main_call0.c_0 (constantI S_ 32 8192#32),
    TRef.unary main_call0.c_0 main_call0.v2 (broadcastInDim S4x8192 ![] bcast_S_S4x8192),
    TRef.binary (.of main_v2 : TRef sig ⟨S4x8192, .i32⟩) main_call0.v2 main_call0.v3 addi,
    TRef.ternary main_call0.v1 main_call0.v3 (.of main_v2 : TRef sig ⟨S4x8192, .i32⟩) main_call0.call0.v0 select,
    TRef.unary main_call0.call0.v0 main_call0.v5 (broadcastInDim S4x8192x1 ![0, 1] bcast_S4x8192_S4x8192x1_0_1),
    TRef.nullary main_call0.c_1 (constantI S1 32 8191#32),
    TRef.nullary main_call0.c_2 (constantI S_ 32 0#32),
    TRef.unary main_call0.c_2 main_call0.v6 (broadcastInDim S4x8192x1 ![] bcast_S_S4x8192x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4x8192x1 ![0, 1, 2] bcast_S1x1x1_S4x8192x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4x8192x1_S4x8192_d2 h_S_),
    TRef.binary (.of main_arg1 : TRef sig ⟨S8192x768, .f32⟩) main_call0.v5 main_call0.v13 (fun x i => Host.gather gather_S8192x768_S4x8192x1_S4x8192x768_2_0_n_n_0_2_1768 x i),
    TRef.unary main_call0.v12 main_call0.v14 (broadcastInDim S4x8192x768 ![0, 1] bcast_S4x8192_S4x8192x768_0_1),
    TRef.nullary main_call0.cst (constant S_ .f32 0x7FC00000#32),
    TRef.unary main_call0.cst main_call0.v15 (broadcastInDim S4x8192x768 ![] bcast_S_S4x8192x768),
    TRef.ternary main_call0.v14 main_call0.v13 main_call0.v15 main_call0.v16 select,
    binary main_arg0 main_v3 main_v4 (addf : (⟨S4x8192x768, .f32⟩ : BufTy).Contents (Elt F) → (⟨S4x8192x768, .f32⟩ : BufTy).Contents (Elt F) → (⟨S4x8192x768, .f32⟩ : BufTy).Contents (Elt F)),
    nullary main_cst (constant S_ .f32 0x00000000#32),
    binary main_v4 main_cst main_v5 ((fun x v => Host.reduceAdd x v reducesTo_S4x8192x768_S4x8192_d2 h_S_) : (⟨S4x8192x768, .f32⟩ : BufTy).Contents (Elt F) → (⟨S_, .f32⟩ : BufTy).Contents (Elt F) → (⟨S4x8192, .f32⟩ : BufTy).Contents (Elt F)),
    unary main_v5 main_v6 (broadcastInDim S4x8192x1 ![0, 1] bcast_S4x8192_S4x8192x1_0_1 : (⟨S4x8192, .f32⟩ : BufTy).Contents (Elt F) → (⟨S4x8192x1, .f32⟩ : BufTy).Contents (Elt F)),
    nullary main_cst_0 (constant S_ .f32 0x44400000#32),
    unary main_cst_0 main_v7 (broadcastInDim S4x8192x1 ![] bcast_S_S4x8192x1 : (⟨S_, .f32⟩ : BufTy).Contents (Elt F) → (⟨S4x8192x1, .f32⟩ : BufTy).Contents (Elt F)),
    binary main_v6 main_v7 main_v8 (Host.divf : (⟨S4x8192x1, .f32⟩ : BufTy).Contents (Elt F) → (⟨S4x8192x1, .f32⟩ : BufTy).Contents (Elt F) → (⟨S4x8192x1, .f32⟩ : BufTy).Contents (Elt F)),
    unary main_v8 main_v9 (broadcastInDim S4x8192x768 ![0, 1, 2] bcast_S4x8192x1_S4x8192x768_0_1_2 : (⟨S4x8192x1, .f32⟩ : BufTy).Contents (Elt F) → (⟨S4x8192x768, .f32⟩ : BufTy).Contents (Elt F)),
    binary main_v4 main_v9 main_v10 (subf : (⟨S4x8192x768, .f32⟩ : BufTy).Contents (Elt F) → (⟨S4x8192x768, .f32⟩ : BufTy).Contents (Elt F) → (⟨S4x8192x768, .f32⟩ : BufTy).Contents (Elt F)),
    binary main_v10 main_v10 main_v11 (mulf : (⟨S4x8192x768, .f32⟩ : BufTy).Contents (Elt F) → (⟨S4x8192x768, .f32⟩ : BufTy).Contents (Elt F) → (⟨S4x8192x768, .f32⟩ : BufTy).Contents (Elt F)),
    nullary main_cst_1 (constant S_ .f32 0x00000000#32),
    binary main_v11 main_cst_1 main_v12 ((fun x v => Host.reduceAdd x v reducesTo_S4x8192x768_S4x8192_d2 h_S_) : (⟨S4x8192x768, .f32⟩ : BufTy).Contents (Elt F) → (⟨S_, .f32⟩ : BufTy).Contents (Elt F) → (⟨S4x8192, .f32⟩ : BufTy).Contents (Elt F)),
    unary main_v12 main_v13 (broadcastInDim S4x8192x1 ![0, 1] bcast_S4x8192_S4x8192x1_0_1 : (⟨S4x8192, .f32⟩ : BufTy).Contents (Elt F) → (⟨S4x8192x1, .f32⟩ : BufTy).Contents (Elt F)),
    nullary main_cst_2 (constant S_ .f32 0x44400000#32),
    unary main_cst_2 main_v14 (broadcastInDim S4x8192x1 ![] bcast_S_S4x8192x1 : (⟨S_, .f32⟩ : BufTy).Contents (Elt F) → (⟨S4x8192x1, .f32⟩ : BufTy).Contents (Elt F)),
    binary main_v13 main_v14 main_v15 (Host.divf : (⟨S4x8192x1, .f32⟩ : BufTy).Contents (Elt F) → (⟨S4x8192x1, .f32⟩ : BufTy).Contents (Elt F) → (⟨S4x8192x1, .f32⟩ : BufTy).Contents (Elt F)),
    unary main_v8 main_v16 (broadcastInDim S4x8192x768 ![0, 1, 2] bcast_S4x8192x1_S4x8192x768_0_1_2 : (⟨S4x8192x1, .f32⟩ : BufTy).Contents (Elt F) → (⟨S4x8192x768, .f32⟩ : BufTy).Contents (Elt F)),
    binary main_v4 main_v16 main_v17 (subf : (⟨S4x8192x768, .f32⟩ : BufTy).Contents (Elt F) → (⟨S4x8192x768, .f32⟩ : BufTy).Contents (Elt F) → (⟨S4x8192x768, .f32⟩ : BufTy).Contents (Elt F)),
    nullary main_cst_3 (constant S_ .f32 0x2B8CBCCC#32),
    unary main_cst_3 main_v18 (broadcastInDim S4x8192x1 ![] bcast_S_S4x8192x1 : (⟨S_, .f32⟩ : BufTy).Contents (Elt F) → (⟨S4x8192x1, .f32⟩ : BufTy).Contents (Elt F)),
    binary main_v15 main_v18 main_v19 (addf : (⟨S4x8192x1, .f32⟩ : BufTy).Contents (Elt F) → (⟨S4x8192x1, .f32⟩ : BufTy).Contents (Elt F) → (⟨S4x8192x1, .f32⟩ : BufTy).Contents (Elt F)),
    unary main_v19 main_v20 (Host.sqrt : (⟨S4x8192x1, .f32⟩ : BufTy).Contents (Elt F) → (⟨S4x8192x1, .f32⟩ : BufTy).Contents (Elt F)),
    unary main_v20 main_v21 (broadcastInDim S4x8192x768 ![0, 1, 2] bcast_S4x8192x1_S4x8192x768_0_1_2 : (⟨S4x8192x1, .f32⟩ : BufTy).Contents (Elt F) → (⟨S4x8192x768, .f32⟩ : BufTy).Contents (Elt F)),
    binary main_v17 main_v21 main_v22 (Host.divf : (⟨S4x8192x768, .f32⟩ : BufTy).Contents (Elt F) → (⟨S4x8192x768, .f32⟩ : BufTy).Contents (Elt F) → (⟨S4x8192x768, .f32⟩ : BufTy).Contents (Elt F)),
    unary main_arg2 main_v23 (broadcastInDim S1x1x768 ![2] bcast_S768_S1x1x768_2 : (⟨S768, .f32⟩ : BufTy).Contents (Elt F) → (⟨S1x1x768, .f32⟩ : BufTy).Contents (Elt F)),
    unary main_v23 main_v24 (broadcastInDim S4x8192x768 ![0, 1, 2] bcast_S1x1x768_S4x8192x768_0_1_2 : (⟨S1x1x768, .f32⟩ : BufTy).Contents (Elt F) → (⟨S4x8192x768, .f32⟩ : BufTy).Contents (Elt F)),
    binary main_v22 main_v24 main_v25 (mulf : (⟨S4x8192x768, .f32⟩ : BufTy).Contents (Elt F) → (⟨S4x8192x768, .f32⟩ : BufTy).Contents (Elt F) → (⟨S4x8192x768, .f32⟩ : BufTy).Contents (Elt F)),
    unary main_arg3 main_v26 (broadcastInDim S1x1x768 ![2] bcast_S768_S1x1x768_2 : (⟨S768, .f32⟩ : BufTy).Contents (Elt F) → (⟨S1x1x768, .f32⟩ : BufTy).Contents (Elt F)),
    unary main_v26 main_v27 (broadcastInDim S4x8192x768 ![0, 1, 2] bcast_S1x1x768_S4x8192x768_0_1_2 : (⟨S1x1x768, .f32⟩ : BufTy).Contents (Elt F) → (⟨S4x8192x768, .f32⟩ : BufTy).Contents (Elt F)),
    binary main_v25 main_v27 main_v28 (addf : (⟨S4x8192x768, .f32⟩ : BufTy).Contents (Elt F) → (⟨S4x8192x768, .f32⟩ : BufTy).Contents (Elt F) → (⟨S4x8192x768, .f32⟩ : BufTy).Contents (Elt F)) ]

-- fifty-six binds re-associated: the rewrite under the chain recurses once per statement
set_option maxRecDepth 2048 in
/-- The entry function is that straight line: the helpers' definitions unfolded at their calls, both sides are
    one chain of steps once sequencing is re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation of the line touches buffers of the core's own references only. -/
theorem ops_sub : (ops : List (HloOp τ sig (Elt F))).Forall fun op => op.bufs ⊆ tcRefs τ sig :=
  ⟨
    nullary_bufs_sub .., unary_bufs_sub .., unary_bufs_sub .., nullary_bufs_sub .., unary_bufs_sub .., binary_bufs_sub ..,
    nullary_bufs_sub .., unary_bufs_sub .., binary_bufs_sub .., ternary_bufs_sub .., unary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub .., binary_bufs_sub .., nullary_bufs_sub .., binary_bufs_sub .., unary_bufs_sub ..,
    nullary_bufs_sub .., unary_bufs_sub .., binary_bufs_sub .., unary_bufs_sub .., binary_bufs_sub .., binary_bufs_sub ..,
    nullary_bufs_sub .., binary_bufs_sub .., unary_bufs_sub .., nullary_bufs_sub .., unary_bufs_sub .., binary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub ..⟩

attribute [local irreducible] Host.reduce Host.reduceAdd Host.gather Host.divf Host.sqrt in
set_option maxRecDepth 8192 in
/-- The line's fold read at the result buffer is the composed term of the stages. Each operation's result at
    its own buffer is its function of its operands' contents, and at any other buffer what was there; one
    pass over the 56 operations turns the fold into the operations composed over the four argument arrays,
    which is the last stage with its definitions unfolded. The reductions, the gather, the division and the
    root are kept folded meanwhile: the equation never looks inside them. -/
theorem out_eq (V : Valuation τ sig (Elt F)) :
    after ops V (main_v28 : DevRef τ sig)
      = Stages.result (F := F) (V (main_arg0 : DevRef τ sig)) (V (main_arg1 : DevRef τ sig))
          (V (main_arg2 : DevRef τ sig)) (V (main_arg3 : DevRef τ sig)) := by
  after_results_simp
  rfl

/-- No operation of the line writes an argument's buffer: each argument ends as it began. -/
theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

/-- On every device, for any float values, from any memory with zero counters: every weakly fair execution of
    the reference terminates with the result buffer at the last stage's term of the four argument arrays as
    the launch found them, and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v28)
          = Stages.result (F := F) (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v28).trans (out_eq _),
      (h c main_arg0).trans (arg0_eq _),
      (h c main_arg1).trans (arg1_eq _),
      (h c main_arg2).trans (arg2_eq _),
      (h c main_arg3).trans (arg3_eq _)⟩)
    (run_seq scopedRefs_eq scopedSems_eq defs main (fun _ => ops) main_eq (fun _ => ops_sub) m ρ)

end Cert.ReferenceIdeal.HandRun

end
-- ==== Proof.RefValueLayout.lean ====
/-
  The reference's layout operations and row sums, read at one entry.

  The reference keeps each row statistic as a column of shape [4, 8192, 1] and spreads it back over the
  768 entries of its row; it lays the scale and shift vectors along the last axis of the full array; and it
  takes each row's sum with a reduction over the last axis. Read at the entry (b, s, k) these say: a
  [4, 8192] array made into a column is the array at (b, s); a column spread over the row is the column at
  (b, s, 0); a [4, 8192] array spread over the row is the array at (b, s); a vector laid along the last axis
  is the vector at k; and the reduction at (b, s), started from the zero word, is the sum over j of the
  operand at (b, s, j).
-/
import proofs.«177086_g13082470383893_cont_sun_c4_756_2_alg».proof.Proof.RefStages
import Idealize.ShloMosaic.Lib.ValueIdx
import Idealize.ShloMosaic.Lib.IdealHost
import Idealize.ShloMosaic.Lib.Pipeline.Value
import Idealize.ShloMosaic.PureOps.Ideal.Laws

noncomputable section

namespace Cert.ReferenceIdeal.StagesValue

open Cert.ReferenceIdeal Cert.ReferenceIdeal.Gen Idealize.ShloMosaic Idealize.ShloMosaic.ValueIdx
open scoped BigOperators

section Layout
variable {α : Type}

/-- A [4, 8192] array made into a column [4, 8192, 1], read at (b, s, 0), is the array at (b, s). -/
theorem column_apply (h : S4x8192.BroadcastsInDim S4x8192x1 ![0, 1]) (v : S4x8192.Idx → α) (bb : Fin 4) (s : Fin 8192) :
    broadcastInDim S4x8192x1 ![0, 1] h v (ix3 bb s (0 : Fin 1)) = v (ix2 bb s) :=
  broadcastInDim_apply _ h v _ (ix2 bb s) fun a => match a with
    | ⟨0, _⟩ => (if_neg (show ¬(4 : Nat) = 1 by decide)).symm
    | ⟨1, _⟩ => (if_neg (show ¬(8192 : Nat) = 1 by decide)).symm

/-- A column [4, 8192, 1] spread over the 768 entries of each row, read at (b, s, k), is the column at (b, s, 0). -/
theorem spreadColumn_apply (h : S4x8192x1.BroadcastsInDim S4x8192x768 ![0, 1, 2]) (c : S4x8192x1.Idx → α)
    (bb : Fin 4) (s : Fin 8192) (k : Fin 768) :
    broadcastInDim S4x8192x768 ![0, 1, 2] h c (ix3 bb s k) = c (ix3 bb s (0 : Fin 1)) :=
  broadcastInDim_apply _ h c _ (ix3 bb s (0 : Fin 1)) fun a => match a with
    | ⟨0, _⟩ => (if_neg (show ¬(4 : Nat) = 1 by decide)).symm
    | ⟨1, _⟩ => (if_neg (show ¬(8192 : Nat) = 1 by decide)).symm
    | ⟨2, _⟩ => (if_pos rfl).symm

/-- A [4, 8192] array spread over the 768 entries of each row, read at (b, s, k), is the array at (b, s). -/
theorem spreadRows_apply (h : S4x8192.BroadcastsInDim S4x8192x768 ![0, 1]) (v : S4x8192.Idx → α)
    (bb : Fin 4) (s : Fin 8192) (k : Fin 768) :
    broadcastInDim S4x8192x768 ![0, 1] h v (ix3 bb s k) = v (ix2 bb s) :=
  broadcastInDim_apply _ h v _ (ix2 bb s) fun a => match a with
    | ⟨0, _⟩ => (if_neg (show ¬(4 : Nat) = 1 by decide)).symm
    | ⟨1, _⟩ => (if_neg (show ¬(8192 : Nat) = 1 by decide)).symm

end Layout

/-- A vector of 768 entries laid along the last axis of the full array, read at (b, s, k), is the vector at k. -/
theorem alongLast_apply (v : FVec Ideal S768 .f32) (bb : Fin 4) (s : Fin 8192) (k : Fin 768) :
    Stages.alongLast (F := Ideal) v (ix3 bb s k) = v (ix1 k) := by
  unfold Stages.alongLast
  refine (broadcastInDim_apply _ _ _ (ix3 bb s k) (ix3 (0 : Fin 1) (0 : Fin 1) k) fun a => match a with
    | ⟨0, _⟩ => (if_pos rfl).symm
    | ⟨1, _⟩ => (if_pos rfl).symm
    | ⟨2, _⟩ => (if_neg (show ¬(768 : Nat) = 1 by decide)).symm).trans ?_
  exact broadcastInDim_apply _ _ v _ (ix1 k) fun a => match a with
    | ⟨0, _⟩ => (if_neg (show ¬(768 : Nat) = 1 by decide)).symm

/-- The shape fact that names the entries of a row: the last axis of [4, 8192, 768] reduces to [4, 8192]. -/
theorem reduces_last : S4x8192x768.Reduces [2] S4x8192 := by decide

/-- The reduction over the last axis started from the zero word, read at (b, s), is the sum over j of the
    operand at (b, s, j). -/
theorem rowSum_apply (h : S4x8192x768.ReducesTo [2] S4x8192) (hu : 0 < S_.numel) (y : FVec Ideal S4x8192x768 .f32)
    (bb : Fin 4) (s : Fin 8192) :
    Host.reduceAdd (F := Ideal) y (constant (F := Ideal) S_ .f32 0x00000000#32) h hu (ix2 bb s)
      = ∑ j : Fin 768, y (ix3 bb s j) := by
  refine (hostReduceAdd_apply y _ h hu (ix2 bb s)).trans ?_
  refine (Ideal.hostReduceAdd_single h reduces_last y _ (ix2 bb s)).trans ?_
  rw [constant_apply, Ideal.ofBits_zero_f32, zero_add]
  refine Finset.sum_congr rfl fun j _ => congrArg y ?_
  funext a
  match a with
  | ⟨0, _⟩ => rfl
  | ⟨1, _⟩ => rfl
  | ⟨2, _⟩ => rfl

end Cert.ReferenceIdeal.StagesValue

end
-- ==== Proof.RefValueTake.lean ====
/-
  The reference's table lookup, read at one entry.

  The reference takes the positional rows with an index array: for every batch entry b the positions
  0, 1, …, 8191. Position s, as a signed 32-bit word, is not negative and is at most 8191, so the wrap of
  negative positions leaves it, the test "inside the table" holds at every (b, s), and the gather, which
  clamps its start index into [0, 8191], reads row s itself. Hence the rows taken, at (b, s, k), are the
  table at (s, k), whatever b is.
-/
import proofs.«177086_g13082470383893_cont_sun_c4_756_2_alg».proof.Proof.RefValueLayout
import Idealize.ShloMosaic.Lib.Affine
import Idealize.ShloMosaic.Lib.ReduceAll

noncomputable section

namespace Cert.ReferenceIdeal.StagesValue

open Cert.ReferenceIdeal Cert.ReferenceIdeal.Gen Idealize.ShloMosaic Idealize.ShloMosaic.ValueIdx
open scoped BigOperators

/-! ## Words -/

/-- A position below 8192, written as a 32-bit word and read back signed, is itself. -/
theorem toInt_position (s : Fin 8192) : (BitVec.ofNat 32 s.val).toInt = (s.val : Int) := by
  have hs := s.isLt
  have h1 : (BitVec.ofNat 32 s.val).toNat = s.val := by rw [BitVec.toNat_ofNat]; omega
  rw [BitVec.toInt_eq_toNat_of_lt (by rw [h1]; omega), h1]

/-- A fold of "and" from 1 over one-bit words that are all 1 is 1. -/
theorem fold_andi_ones {ι : Type} [DecidableEq ι] (S : Finset ι) (f : ι → BitVec 1) (hf : ∀ k, f k = 1#1) :
    S.fold IntOp.andi 1#1 f = 1#1 := by
  induction S using Finset.induction_on with
  | empty => exact Finset.fold_empty
  | insert a S ha ih => rw [Finset.fold_insert ha, hf a, ih]; decide

/-! ## The positions and their wrap -/

/-- The position array at (b, s) is the word s. -/
theorem positions_apply (bb : Fin 4) (s : Fin 8192) : Stages.positions (ix2 bb s) = BitVec.ofNat 32 s.val := by
  unfold Stages.positions
  refine (broadcastInDim_apply _ _ _ (ix2 bb s) (ix2 (0 : Fin 1) s) fun a => match a with
    | ⟨0, _⟩ => (if_pos rfl).symm
    | ⟨1, _⟩ => (if_neg (show ¬(8192 : Nat) = 1 by decide)).symm).trans ?_
  refine (broadcastInDim_apply _ _ _ (ix2 (0 : Fin 1) s) (ix1 s) fun a => match a with
    | ⟨0, _⟩ => (if_neg (show ¬(8192 : Nat) = 1 by decide)).symm).trans ?_
  rfl

/-- The wrap leaves a word that is not negative. -/
theorem wrapped_apply (idx : IVec S4x8192 32) (j : S4x8192.Idx) (h : 0 ≤ (idx j).toInt) :
    Stages.wrapped idx j = idx j := by
  unfold Stages.wrapped
  refine (select_apply _ _ _ j).trans ?_
  have hc : cmpi .slt idx (broadcastInDim S4x8192 ![] bcast_S_S4x8192 (constantI S_ 32 0#32)) j = 0#1 := by
    refine eq_zero_of_ne_one fun h1 => ?_
    have h2 : (idx j).toInt < (0#32 : BitVec 32).toInt := IntOp.cmpi_slt.mp h1
    rw [show (0#32 : BitVec 32).toInt = 0 from by decide] at h2
    omega
  rw [hc]
  exact select_zero _ _

/-- The wrapped position at (b, s) is the word s. -/
theorem wrapped_positions (bb : Fin 4) (s : Fin 8192) :
    Stages.wrapped Stages.positions (ix2 bb s) = BitVec.ofNat 32 s.val := by
  refine (wrapped_apply _ _ ?_).trans (positions_apply bb s)
  rw [positions_apply, toInt_position]
  exact Int.natCast_nonneg _

/-! ## Inside the table -/

/-- The shape fact that names the one entry of a start index: the unit last axis of [4, 8192, 1] reduces to [4, 8192]. -/
theorem reduces_unit : S4x8192x1.Reduces [2] S4x8192 := by decide

/-- Where the wrapped index of (b, s) lies in [0, 8191], the test "inside the table" holds at (b, s). -/
theorem inTable_apply (idx : IVec S4x8192 32) (bb : Fin 4) (s : Fin 8192)
    (h0 : 0 ≤ (Stages.wrapped idx (ix2 bb s)).toInt) (h1 : (Stages.wrapped idx (ix2 bb s)).toInt ≤ 8191) :
    Stages.inTable idx (ix2 bb s) = 1#1 := by
  unfold Stages.inTable
  refine (Host.reduce_eq_fold_single IntOp.andi _ _ _ reduces_unit _ (ix2 bb s)).trans ?_
  refine fold_andi_ones _ _ fun k => ?_
  have hk : reduces_unit.lift (ix2 bb s) k = ix3 bb s (0 : Fin 1) := by
    funext a
    match a with
    | ⟨0, _⟩ => rfl
    | ⟨1, _⟩ => rfl
    | ⟨2, _⟩ =>
      have hk1 : k.val < 1 := k.isLt
      exact Fin.ext (show k.val = 0 by omega)
  have hs : Stages.startIdx idx (ix3 bb s (0 : Fin 1)) = Stages.wrapped idx (ix2 bb s) :=
    column_apply _ _ bb s
  show andi _ _ (reduces_unit.lift (ix2 bb s) k) = 1#1
  rw [hk]
  refine IntOp.andi_eq_one.mpr ⟨IntOp.cmpi_sge.mpr ?_, IntOp.cmpi_sle.mpr ?_⟩
  · show (0#32 : BitVec 32).toInt ≤ (Stages.startIdx idx (ix3 bb s (0 : Fin 1))).toInt
    rw [hs, show (0#32 : BitVec 32).toInt = 0 from by decide]
    exact h0
  · show (Stages.startIdx idx (ix3 bb s (0 : Fin 1))).toInt ≤ (8191#32 : BitVec 32).toInt
    rw [hs, show (8191#32 : BitVec 32).toInt = 8191 from by decide]
    exact h1

/-! ## The gather -/

section Gather
variable {α : Type}

/-- The gather at (b, s, k) reads the table at the row its start index names, clamped into [0, 8191], and at
    column k: the row axis is collapsed (the start alone places it), the column axis carries the offset k. -/
theorem gather_apply (tbl : S8192x768.Idx → α) (idx : IVec S4x8192x1 32) (bb : Fin 4) (s : Fin 8192) (k : Fin 768)
    (r : Fin 8192) (hr : min (idx (ix3 bb s (0 : Fin 1))).toInt.toNat 8191 = r.val) :
    Host.gather gather_S8192x768_S4x8192x1_S4x8192x768_2_0_n_n_0_2_1768 tbl idx (ix3 bb s k) = tbl (ix2 r k) := by
  unfold Host.gather
  refine congrArg tbl ?_
  funext a
  refine Fin.ext ?_
  match a with
  | ⟨0, _⟩ =>
    show gather_S8192x768_S4x8192x1_S4x8192x768_2_0_n_n_0_2_1768.start (ix3 bb s k) idx 0
        + gather_S8192x768_S4x8192x1_S4x8192x768_2_0_n_n_0_2_1768.batchCoord (ix3 bb s k) 0
        + gather_S8192x768_S4x8192x1_S4x8192x768_2_0_n_n_0_2_1768.offCoord (ix3 bb s k) 0 = r.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S8192x768_S4x8192x1_S4x8192x768_2_0_n_n_0_2_1768.startIndexMap from
      List.mem_singleton.mpr rfl)]
    have hsi : ∀ c, gather_S8192x768_S4x8192x1_S4x8192x768_2_0_n_n_0_2_1768.siIdx (ix3 bb s k) c
        = ix3 bb s (0 : Fin 1) := by
      intro c
      funext b
      refine Fin.ext ?_
      match b with
      | ⟨0, _⟩ => rfl
      | ⟨1, _⟩ => rfl
      | ⟨2, _⟩ =>
        have hc : c.val < 1 := c.isLt
        show c.val = 0
        omega
    rw [hsi]
    exact hr
  | ⟨1, _⟩ =>
    show gather_S8192x768_S4x8192x1_S4x8192x768_2_0_n_n_0_2_1768.start (ix3 bb s k) idx 1
        + gather_S8192x768_S4x8192x1_S4x8192x768_2_0_n_n_0_2_1768.batchCoord (ix3 bb s k) 1
        + gather_S8192x768_S4x8192x1_S4x8192x768_2_0_n_n_0_2_1768.offCoord (ix3 bb s k) 1 = k.val
    rw [GatherDims.batchCoord_eq_zero _ _ _ List.not_mem_nil]
    unfold GatherDims.start
    rw [dif_neg (show ¬(1 : Fin 2) ∈ gather_S8192x768_S4x8192x1_S4x8192x768_2_0_n_n_0_2_1768.startIndexMap by decide)]
    unfold GatherDims.offCoord
    rw [dif_pos ((GatherDims.mem_sKept _ _).mpr ⟨by decide, List.not_mem_nil⟩)]
    show 0 + 0 + k.val = k.val
    omega

end Gather

/-! ## The rows taken -/

/-- The rows taken at the positions, read at (b, s, k), are the table at (s, k). -/
theorem takeRows_apply (pos : FVec Ideal S8192x768 .f32) (bb : Fin 4) (s : Fin 8192) (k : Fin 768) :
    Stages.takeRows (F := Ideal) pos Stages.positions (ix3 bb s k) = pos (ix2 s k) := by
  have hs := s.isLt
  have hw : Stages.wrapped Stages.positions (ix2 bb s) = BitVec.ofNat 32 s.val := wrapped_positions bb s
  have hi : (Stages.wrapped Stages.positions (ix2 bb s)).toInt = (s.val : Int) := by rw [hw, toInt_position]
  have hin : Stages.inTable Stages.positions (ix2 bb s) = 1#1 :=
    inTable_apply Stages.positions bb s (by rw [hi]; exact Int.natCast_nonneg _) (by rw [hi]; omega)
  unfold Stages.takeRows
  refine (select_apply _ _ _ _).trans ?_
  rw [spreadRows_apply, hin, select_one]
  refine gather_apply pos _ bb s k s ?_
  rw [show Stages.startIdx Stages.positions (ix3 bb s (0 : Fin 1)) = Stages.wrapped Stages.positions (ix2 bb s) from
    column_apply _ _ bb s, hi, Int.toNat_natCast]
  exact Nat.min_eq_left (by omega)

end Cert.ReferenceIdeal.StagesValue

end
-- ==== Proof.RefValue.lean ====
/-
  The reference's result array, read at one entry, is the two-pass layer normalisation of that entry's row.

  Stage by stage at the entry (b, s, k): the input plus the rows taken is the row y of x + pos at k; the mean
  column at (b, s) is (Σ y) / n, with n the word the reference divides by; the centred entry is y k less that
  mean; the variance column is the mean of the squared centred entries; the normalised entry is the centred
  entry divided by the root of variance plus the small constant; and the result scales by g k and shifts by
  b k. That is the two-pass form of the specification, term for term.
-/
import proofs.«177086_g13082470383893_cont_sun_c4_756_2_alg».proof.Proof.RefValueTake
import proofs.«177086_g13082470383893_cont_sun_c4_756_2_alg».proof.Proof.Spec

noncomputable section

namespace Cert.ReferenceIdeal.StagesValue

open Cert.ReferenceIdeal Cert.ReferenceIdeal.Gen Idealize.ShloMosaic Idealize.ShloMosaic.ValueIdx
open scoped BigOperators

/-- The input plus the rows taken, at (b, s, k), is entry k of row (b, s) of x + pos. -/
theorem summed_apply (x : FVec Ideal S4x8192x768 .f32) (pos : FVec Ideal S8192x768 .f32)
    (bb : Fin 4) (s : Fin 8192) (k : Fin 768) :
    Stages.summed (F := Ideal) x pos (ix3 bb s k) = Cert.PosLayerNorm.row x pos bb s k := by
  unfold Stages.summed Cert.PosLayerNorm.row
  refine (addf_apply _ _ _).trans ?_
  rw [takeRows_apply]

/-! ## The row statistics of an array whose row (b, s) is r -/

/-- The mean column at (b, s): the row's sum divided by the count word. -/
theorem meanCol_apply (y : FVec Ideal S4x8192x768 .f32) (bb : Fin 4) (s : Fin 8192) (r : Fin 768 → EReal)
    (hy : ∀ j, y (ix3 bb s j) = r j) :
    Stages.meanCol (F := Ideal) y (ix3 bb s (0 : Fin 1))
      = Ideal.div (∑ j, r j) (Ideal.ofBits .f32 0x44400000#32) := by
  unfold Stages.meanCol
  refine (hostDivf_apply _ _ _).trans ?_
  rw [column_apply, rowSum_apply, broadcastInDim_scalar_apply, constant_apply]
  exact congrArg (fun t => Ideal.div t _) (Finset.sum_congr rfl fun j _ => hy j)

/-- The centred entry at (b, s, k): the entry less the row's mean. -/
theorem centred_apply (y : FVec Ideal S4x8192x768 .f32) (bb : Fin 4) (s : Fin 8192) (k : Fin 768) (r : Fin 768 → EReal)
    (hy : ∀ j, y (ix3 bb s j) = r j) :
    Stages.centred (F := Ideal) y (ix3 bb s k)
      = r k - Ideal.div (∑ j, r j) (Ideal.ofBits .f32 0x44400000#32) := by
  unfold Stages.centred
  refine (subf_apply _ _ _).trans ?_
  rw [spreadColumn_apply, meanCol_apply y bb s r hy, hy k]

/-- The variance column at (b, s): the sum of the squared centred entries divided by the count word. -/
theorem varCol_apply (y : FVec Ideal S4x8192x768 .f32) (bb : Fin 4) (s : Fin 8192) (r : Fin 768 → EReal)
    (hy : ∀ j, y (ix3 bb s j) = r j) :
    Stages.varCol (F := Ideal) y (ix3 bb s (0 : Fin 1))
      = Ideal.div (∑ j, (r j - Ideal.div (∑ i, r i) (Ideal.ofBits .f32 0x44400000#32))
            * (r j - Ideal.div (∑ i, r i) (Ideal.ofBits .f32 0x44400000#32)))
          (Ideal.ofBits .f32 0x44400000#32) := by
  unfold Stages.varCol
  refine (hostDivf_apply _ _ _).trans ?_
  rw [column_apply, rowSum_apply, broadcastInDim_scalar_apply, constant_apply]
  refine congrArg (fun t => Ideal.div t _) (Finset.sum_congr rfl fun j _ => ?_)
  rw [mulf_apply, centred_apply y bb s j r hy]

/-- The normalised entry at (b, s, k): the centred entry divided by the root of variance plus the small constant. -/
theorem normed_apply (y : FVec Ideal S4x8192x768 .f32) (bb : Fin 4) (s : Fin 8192) (k : Fin 768) (r : Fin 768 → EReal)
    (hy : ∀ j, y (ix3 bb s j) = r j) :
    Stages.normed (F := Ideal) y (ix3 bb s k)
      = Ideal.div (r k - Ideal.div (∑ j, r j) (Ideal.ofBits .f32 0x44400000#32))
          (Ideal.sqrt (Ideal.div (∑ j, (r j - Ideal.div (∑ i, r i) (Ideal.ofBits .f32 0x44400000#32))
              * (r j - Ideal.div (∑ i, r i) (Ideal.ofBits .f32 0x44400000#32)))
            (Ideal.ofBits .f32 0x44400000#32) + Cert.PosLayerNorm.eps)) := by
  unfold Stages.normed
  refine (hostDivf_apply _ _ _).trans ?_
  rw [centred_apply y bb s k r hy, spreadColumn_apply]
  refine congrArg (fun t => Ideal.div _ (Ideal.sqrt t)) ?_
  refine (addf_apply _ _ _).trans ?_
  rw [varCol_apply y bb s r hy, broadcastInDim_scalar_apply, constant_apply]
  rfl

/-! ## The result -/

/-- The reference's result array at (b, s, k) is the two-pass form over row (b, s) of x + pos, with the count
    the word the reference divides by. -/
theorem result_ix3 (x : FVec Ideal S4x8192x768 .f32) (pos : FVec Ideal S8192x768 .f32) (g b : FVec Ideal S768 .f32)
    (bb : Fin 4) (s : Fin 8192) (k : Fin 768) :
    Stages.result (F := Ideal) x pos g b (ix3 bb s k)
      = Cert.PosLayerNorm.twoPass (Ideal.ofBits .f32 0x44400000#32) (Cert.PosLayerNorm.row x pos bb s) (g (ix1 k)) (b (ix1 k)) k := by
  unfold Stages.result Cert.PosLayerNorm.twoPass
  refine (addf_apply _ _ _).trans ?_
  rw [alongLast_apply b bb s k]
  refine congrArg (fun t => t + b (ix1 k)) ?_
  refine (mulf_apply _ _ _).trans ?_
  rw [alongLast_apply g bb s k]
  refine congrArg (fun t => t * g (ix1 k)) ?_
  exact normed_apply (Stages.summed (F := Ideal) x pos) bb s k (Cert.PosLayerNorm.row x pos bb s)
    (fun j => summed_apply x pos bb s j)

end Cert.ReferenceIdeal.StagesValue

end
-- ==== Proof.LibBatchNormStats.lean ====
/-
  Batch statistics on the extended reals: one pass against two.

  A layer normalised by statistics taken over a whole batch can get its variance in one pass or in
  two. One pass: the mean of the values and the mean of their squares, then `E[x²] − E[x]²`, clamped
  at zero. Two passes: subtract the mean first, then average the squared deviations. On real values
  the two agree — expand the square of a deviation; the cross term collapses because the values sum
  to the count times the mean — and the clamp does nothing, an average of squares being non-negative.
  In the same way the normalisation `(x − μ)·r·g + b` may be folded into one scale and one shift,
  `x·(r·g) + (b − μ·(r·g))`.

  Both facts need every value to be a real: at an infinity the subtraction and the distributive law
  fail. They are stated here for coerced reals over any finite index type, with the division by the
  count written as the float semantics has it at the exact instance (`Ideal.div`), and the count any
  positive real equal to the number of indices.
-/
import Idealize.ShloMosaic.PureOps.Ideal

noncomputable section

namespace Idealize.ShloMosaic.BatchNormStats

open scoped BigOperators

variable {ι : Type*} [Fintype ι]

/-- A finite sum of coerced reals is the coerced sum. -/
theorem coe_sum (s : Finset ι) (x : ι → ℝ) :
    (∑ i ∈ s, ((x i : ℝ) : EReal)) = ((∑ i ∈ s, x i : ℝ) : EReal) := by
  classical
  refine Finset.induction_on s ?_ ?_
  · simp
  · intro a s ha ih
    rw [Finset.sum_insert ha, Finset.sum_insert ha, ih, EReal.coe_add]

/-- The quotient of two coerced reals, the divisor not zero, is the coerced quotient. -/
theorem div_coe_coe (a n : ℝ) (hn : n ≠ 0) : Ideal.div (a : EReal) (n : EReal) = ((a / n : ℝ) : EReal) := by
  rw [Ideal.div_coe hn, ← EReal.coe_mul, mul_one_div]

/-- On the reals, with `μ` the mean: the mean of the squared deviations from `μ` is the mean of the
    squares less `μ²`. The count `n` is any nonzero real equal to the number of indices. -/
theorem real_var_two_forms (x : ι → ℝ) (n : ℝ) (hn : n ≠ 0) (hcard : (Fintype.card ι : ℝ) = n) :
    (∑ i, (x i - (∑ j, x j) / n) * (x i - (∑ j, x j) / n)) / n
      = (∑ i, x i * x i) / n - ((∑ j, x j) / n) * ((∑ j, x j) / n) := by
  have hS : ∑ j, x j = n * ((∑ j, x j) / n) := by field_simp
  generalize (∑ j, x j) / n = μ at hS ⊢
  have hdev : ∀ i, (x i - μ) * (x i - μ) = x i * x i - 2 * μ * x i + μ * μ := fun i => by ring
  have h1 : ∑ i, (x i - μ) * (x i - μ)
      = (∑ i, x i * x i) - 2 * μ * (∑ i, x i) + (Fintype.card ι : ℝ) * (μ * μ) := by
    simp only [hdev, Finset.sum_add_distrib, Finset.sum_sub_distrib, ← Finset.mul_sum, Finset.sum_const,
      Finset.card_univ, nsmul_eq_mul]
    ring
  rw [h1, hcard, hS]
  field_simp
  ring

/-- The one-pass form is non-negative: it is a mean of squares. -/
theorem real_var_nonneg (x : ι → ℝ) (n : ℝ) (hn : 0 < n) (hcard : (Fintype.card ι : ℝ) = n) :
    0 ≤ (∑ i, x i * x i) / n - ((∑ j, x j) / n) * ((∑ j, x j) / n) := by
  rw [← real_var_two_forms x n hn.ne' hcard]
  exact div_nonneg (Finset.sum_nonneg fun i _ => mul_self_nonneg _) hn.le

/-- The variance of real values, both ways, on the extended reals: the mean of the squares less the
    squared mean, clamped at zero, is the mean of the squared deviations from the mean. -/
theorem var_two_forms (x : ι → ℝ) (n : ℝ) (hn : 0 < n) (hcard : (Fintype.card ι : ℝ) = n) :
    max (Ideal.div (∑ i, (x i : EReal) * (x i : EReal)) (n : EReal)
          - Ideal.div (∑ i, (x i : EReal)) (n : EReal) * Ideal.div (∑ i, (x i : EReal)) (n : EReal)) 0
      = Ideal.div (∑ i, ((x i : EReal) - Ideal.div (∑ j, (x j : EReal)) (n : EReal))
                        * ((x i : EReal) - Ideal.div (∑ j, (x j : EReal)) (n : EReal))) (n : EReal) := by
  have hn' : n ≠ 0 := hn.ne'
  simp only [← EReal.coe_mul, coe_sum, div_coe_coe _ _ hn', ← EReal.coe_sub]
  rw [real_var_two_forms x n hn' hcard, max_eq_left]
  exact_mod_cast real_var_nonneg x n hn hcard

/-- The reciprocal square root of a positive real is a real: the reciprocal of its square root. -/
theorem rsqrt_coe_pos {r : ℝ} (hr : 0 < r) :
    Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr hr.le), if_neg hr.ne']

/-- Scale and shift folded into two constants: on reals `x·(r·g) + (b − μ·(r·g))` is
    `(x − μ)·r·g + b`. -/
theorem normalize_two_forms (x μ r g b : ℝ) :
    (x : EReal) * ((r : EReal) * (g : EReal)) + ((b : EReal) - (μ : EReal) * ((r : EReal) * (g : EReal)))
      = ((x : EReal) - (μ : EReal)) * (r : EReal) * (g : EReal) + (b : EReal) := by
  simp only [← EReal.coe_mul, ← EReal.coe_sub, ← EReal.coe_add]
  rw [EReal.coe_eq_coe_iff]
  ring

end Idealize.ShloMosaic.BatchNormStats

end
-- ==== Proof.Algebra.lean ====
/-
  One pass against two, on a row of real numbers.

  For a row y of 768 real numbers let S = Σ y, Q = Σ y², and μ = S / 768. Expanding the square,
  Σ (y − μ)² = Q − 2 μ S + 768 μ² = Q − 768 μ², so the mean squared deviation (Σ (y − μ)²) / 768 equals
  Q / 768 − μ²: the variance taken in one pass is the variance taken in two. It is a mean of squares, hence
  not negative, and with a positive constant added it is positive; there the reciprocal square root is the
  reciprocal of the square root, and multiplying by it is dividing by the root. Multiplying by 1/768 is
  dividing by 768. So the two normalised entries agree, and the scale and the shift are applied to both alike.

  All of this needs the row's entries to be real: at an infinity the subtraction and the distributive law
  fail. The two f32 words that enter are read here once: the constant under the root is a positive real, and
  the count's word is 768.
-/
import proofs.«177086_g13082470383893_cont_sun_c4_756_2_alg».proof.Proof.Spec
import proofs.«177086_g13082470383893_cont_sun_c4_756_2_alg».proof.Proof.LibBatchNormStats

noncomputable section

namespace Cert.PosLayerNorm

open Idealize.ShloMosaic Idealize.ShloMosaic.BatchNormStats
open scoped BigOperators

/-- The constant under the root is a positive real: the word 0x2B8CBCCC is 9223372 · 2⁻⁶³. -/
theorem eps_pos : ∃ e : ℝ, 0 < e ∧ eps = (e : EReal) := by
  refine ⟨9223372 * (2 : ℝ) ^ (-63 : Int), by positivity, ?_⟩
  simp [eps, Ideal.ofBits, Ideal.ieee, -EReal.coe_mul]

/-- The count's word 0x44400000 is the real 768. -/
theorem count_word : Ideal.ofBits .f32 0x44400000#32 = ((768 : ℝ) : EReal) := by
  simp [Ideal.ofBits, Ideal.ieee, -EReal.coe_mul]
  norm_num

/-- The square root of a coerced real that is not negative is the coerced square root. -/
theorem sqrt_coe_nonneg {r : ℝ} (hr : 0 ≤ r) : Ideal.sqrt (r : EReal) = ((Real.sqrt r : ℝ) : EReal) := by
  show (if r < 0 then (⊥ : EReal) else ((Real.sqrt r : ℝ) : EReal)) = _
  rw [if_neg (not_lt.mpr hr)]

/-- The normalised entry, both ways, on a row of reals with a positive real e under the root. -/
theorem normalised_two_forms (y : Fin 768 → ℝ) (e : ℝ) (he : 0 < e) (k : Fin 768) :
    ((y k : EReal) - (∑ j, (y j : EReal)) * ((1 / 768 : ℝ) : EReal))
        * Ideal.rsqrt ((∑ j, (y j : EReal) * (y j : EReal)) * ((1 / 768 : ℝ) : EReal)
            - (∑ j, (y j : EReal)) * ((1 / 768 : ℝ) : EReal) * ((∑ j, (y j : EReal)) * ((1 / 768 : ℝ) : EReal))
            + (e : EReal))
      = Ideal.div ((y k : EReal) - Ideal.div (∑ j, (y j : EReal)) ((768 : ℝ) : EReal))
          (Ideal.sqrt (Ideal.div (∑ j, ((y j : EReal) - Ideal.div (∑ i, (y i : EReal)) ((768 : ℝ) : EReal))
              * ((y j : EReal) - Ideal.div (∑ i, (y i : EReal)) ((768 : ℝ) : EReal))) ((768 : ℝ) : EReal)
            + (e : EReal))) := by
  have h768 : (768 : ℝ) ≠ 0 := by norm_num
  have hcard : (Fintype.card (Fin 768) : ℝ) = 768 := by simp
  simp only [← EReal.coe_mul, coe_sum, div_coe_coe _ _ h768, ← EReal.coe_sub, ← EReal.coe_add]
  have hvar : (∑ j, y j * y j) * (1 / 768) - (∑ j, y j) * (1 / 768) * ((∑ j, y j) * (1 / 768))
      = (∑ j, (y j - (∑ i, y i) / 768) * (y j - (∑ i, y i) / 768)) / 768 := by
    rw [real_var_two_forms y 768 h768 hcard]; ring
  rw [hvar]
  have hv : 0 ≤ (∑ j, (y j - (∑ i, y i) / 768) * (y j - (∑ i, y i) / 768)) / 768 :=
    div_nonneg (Finset.sum_nonneg fun j _ => mul_self_nonneg _) (by norm_num)
  have hpos : 0 < (∑ j, (y j - (∑ i, y i) / 768) * (y j - (∑ i, y i) / 768)) / 768 + e := by linarith
  rw [rsqrt_coe_pos hpos, sqrt_coe_nonneg hpos.le, div_coe_coe _ _ (Real.sqrt_pos.mpr hpos).ne',
    ← EReal.coe_mul, EReal.coe_eq_coe_iff, div_eq_mul_inv]
  congr 1
  ring

/-- ONE PASS IS TWO PASSES on a row of real numbers: with the reciprocal 1/768 on one side and the count
    768 on the other, whatever the scale and the shift. -/
theorem onePass_eq_twoPass (y : Fin 768 → EReal) (hy : ∀ j, ∃ r : ℝ, y j = (r : EReal)) (g b : EReal) (k : Fin 768) :
    onePass ((1 / 768 : ℝ) : EReal) y g b k = twoPass ((768 : ℝ) : EReal) y g b k := by
  choose r hr using hy
  obtain rfl : y = fun j => (r j : EReal) := funext hr
  obtain ⟨e, he, hee⟩ := eps_pos
  unfold onePass twoPass
  rw [hee, normalised_two_forms r e he k]

end Cert.PosLayerNorm

end
-- ==== Proof.Bridge.lean ====
/-
  The reference's result array is the specification, on arrays of real numbers.

  Entry (b, s, k) of the reference's result is the two-pass normalisation of row (b, s) of x + pos with the
  count's f32 word as divisor; that word is 768; the row's entries are sums of two reals, hence real; and on
  a row of reals two passes give what one pass gives with the reciprocal 1/768. That is the specification's
  entry (b, s, k).
-/
import proofs.«177086_g13082470383893_cont_sun_c4_756_2_alg».proof.Proof.RefValue
import proofs.«177086_g13082470383893_cont_sun_c4_756_2_alg».proof.Proof.Algebra

noncomputable section

namespace Cert.PosLayerNorm

open Idealize.ShloMosaic Idealize.ShloMosaic.ValueIdx

/-- On arrays of real numbers the reference's result array is the one-pass specification. -/
theorem result_eq_out (x : SX.Idx → EReal) (pos : SP.Idx → EReal) (g b : SV.Idx → EReal)
    (hx : ∀ i, ∃ r : ℝ, x i = (r : EReal)) (hp : ∀ i, ∃ r : ℝ, pos i = (r : EReal)) :
    Cert.ReferenceIdeal.Stages.result (F := Ideal) x pos g b = out x pos g b := by
  funext i
  obtain ⟨bb, s, k, rfl⟩ : ∃ (bb : Fin 4) (s : Fin 8192) (k : Fin 768), i = ix3 bb s k := ⟨i 0, i 1, i 2, eq_ix3 i⟩
  rw [Cert.ReferenceIdeal.StagesValue.result_ix3, out_ix3, count_word]
  refine (onePass_eq_twoPass _ (fun j => ?_) _ _ _).symm
  obtain ⟨rx, hrx⟩ := hx (ix3 bb s j)
  obtain ⟨rp, hrp⟩ := hp (ix2 s j)
  exact ⟨rx + rp, by unfold row; rw [hrx, hrp, EReal.coe_add]⟩

end Cert.PosLayerNorm

end
-- ==== Proof.Finite.lean ====
/-
  From the precondition to rows of real numbers.

  The precondition says, for each of the four float arguments, that every entry's absolute value is below
  +∞ (the f32 word 0x7F800000), the four statements joined by and. An extended real whose absolute value
  max x (−x) is below +∞ is neither +∞ nor −∞: it is a real number. Only the input array and the positional
  table are needed as reals (the scale and the shift enter both programs alike).
-/
import proofs.«177086_g13082470383893_cont_sun_c4_756_2_alg».proof.Proof.Gen.Pre_finite_inputs
import Idealize.ShloMosaic.PureOps.Ideal
import Idealize.ShloMosaic.Lib.ValueIdx
import Idealize.ShloMosaic.Lib.ReduceAll

noncomputable section

namespace Cert.PosLayerNorm.Finite

open Idealize.ShloMosaic Cert.Pre_finite_inputs Cert.Pre_finite_inputs.Gen

/-- An extended real whose absolute value compares below the word of +∞ is a real number. -/
theorem real_of_abs_lt (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  unfold Ideal.cmp at h
  induction x using EReal.rec with
  | bot => simp at h
  | coe r => exact ⟨r, rfl⟩
  | top => simp at h

/-- Under the precondition every entry of the input array and of the positional table is a real number. -/
theorem inputs_real (x : FVec Ideal S4x8192x768 .f32) (pos : FVec Ideal S8192x768 .f32) (g b : FVec Ideal S768 .f32)
    (h : fn (F := Ideal) x pos g b = fun _ => 1#1) :
    (∀ i, ∃ r : ℝ, x i = (r : EReal)) ∧ (∀ i, ∃ r : ℝ, pos i = (r : EReal)) := by
  have h0 := congrFun h ValueIdx.ix0
  dsimp only [fn, fn_part1] at h0
  have h1 := IntOp.andi_eq_one.1 (show IntOp.andi _ _ = 1#1 from h0)
  have h2 := IntOp.andi_eq_one.1 (show IntOp.andi _ _ = 1#1 from h1.1)
  have h3 := IntOp.andi_eq_one.1 (show IntOp.andi _ _ = 1#1 from h2.1)
  haveI : Subsingleton S_.Idx := ⟨fun a b => funext fun d => d.elim0⟩
  refine ⟨fun i => ?_, fun i => ?_⟩
  · exact real_of_abs_lt (x i) (Host.reduce_andi_all _ _ _ _ _ h3.1 i)
  · exact real_of_abs_lt (pos i) (Host.reduce_andi_all _ _ _ _ _ h3.2 i)

end Cert.PosLayerNorm.Finite

end
-- ==== Proof.lean ====
/-
  The certificate: a positional table added to the input and each row layer-normalised, once in a kernel that
  takes the row statistics in one pass and once in a reference that looks the table rows up by index and
  takes them in two.

  The three frames: the kernel's two programs by their generated frame proofs; the reference by its run,
  its result dropped. The idealisation rewrote one literal twice — the reciprocal of the row width, read as
  the rational 1/768 — and each rewrite is the named-constant rule's statement. For the values: the kernel's
  program ends with its output array at the one-pass specification of its arguments (block by block, every
  block the specification restricted to it); the reference's program ends with its result at the composed
  term of its operations, which entry by entry is the two-pass form; the precondition makes the input and the
  table arrays of real numbers, and on rows of reals the two forms are equal. Both runs are stated with the
  same specification term, the arguments' agreement rewritten.
-/
import proofs.«177086_g13082470383893_cont_sun_c4_756_2_alg».proof.Defs
import proofs.«177086_g13082470383893_cont_sun_c4_756_2_alg».proof.Proof.Gen.Kernel
import proofs.«177086_g13082470383893_cont_sun_c4_756_2_alg».proof.Proof.Gen.Kernel.Skeleton
import proofs.«177086_g13082470383893_cont_sun_c4_756_2_alg».proof.Proof.Gen.Kernel.Launch
import proofs.«177086_g13082470383893_cont_sun_c4_756_2_alg».proof.Proof.Gen.Kernel.Points
import proofs.«177086_g13082470383893_cont_sun_c4_756_2_alg».proof.Proof.Gen.Kernel.Frame
import proofs.«177086_g13082470383893_cont_sun_c4_756_2_alg».proof.Proof.Gen.KernelIdeal
import proofs.«177086_g13082470383893_cont_sun_c4_756_2_alg».proof.Proof.Gen.KernelIdeal.Skeleton
import proofs.«177086_g13082470383893_cont_sun_c4_756_2_alg».proof.Proof.Gen.KernelIdeal.Launch
import proofs.«177086_g13082470383893_cont_sun_c4_756_2_alg».proof.Proof.Gen.KernelIdeal.Points
import proofs.«177086_g13082470383893_cont_sun_c4_756_2_alg».proof.Proof.Gen.KernelIdeal.Frame
import proofs.«177086_g13082470383893_cont_sun_c4_756_2_alg».proof.Proof.Gen.KernelIdeal.Value
import proofs.«177086_g13082470383893_cont_sun_c4_756_2_alg».proof.Proof.Gen.ReferenceIdeal
import proofs.«177086_g13082470383893_cont_sun_c4_756_2_alg».proof.Proof.Gen.Pre_finite_inputs
import proofs.«177086_g13082470383893_cont_sun_c4_756_2_alg».proof.Proof.KernelValue
import proofs.«177086_g13082470383893_cont_sun_c4_756_2_alg».proof.Proof.RefRun
import proofs.«177086_g13082470383893_cont_sun_c4_756_2_alg».proof.Proof.Bridge
import proofs.«177086_g13082470383893_cont_sun_c4_756_2_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.HandRun.run m ρ)

/-- The ledger's two entries are one rewrite at two sites: the word 0x3AAAAAAB named as the rational 1/768. -/
theorem preserves : Cert.preserves_Kernel_KernelIdeal :=
  ⟨IdealRules.named_const.statement Cert.KernelIdeal.κ "inv_768" .f32 0x3AAAAAAB#32 ((1 / 768 : ℝ) : EReal) rfl,
   IdealRules.named_const.statement Cert.KernelIdeal.κ "inv_768" .f32 0x3AAAAAAB#32 ((1 / 768 : ℝ) : EReal) rfl⟩

/-- Both programs end at the one-pass specification of the arguments: the kernel's by its blocks, the
    reference's because its two-pass result equals it on the real arrays the precondition gives. -/
theorem algebraic : Cert.algebraic_KernelIdeal_ReferenceIdeal := by
  intro m ρ m' ρ' hpre hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.HandRun.run m' ρ')
  rw [(hagree c).1, (hagree c).2.1, (hagree c).2.2.1, (hagree c).2.2.2]
  obtain ⟨hx, hp⟩ := Cert.PosLayerNorm.Finite.inputs_real _ _ _ _ (hpre c)
  exact Cert.PosLayerNorm.result_eq_out _ _ _ _ hx hp

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
